-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S64x20 : Shape := ⟨2, ![64, 20]⟩
abbrev S20 : Shape := ⟨1, ![20]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel
  bcast_S_S64x20 : S_.BroadcastsInDim S64x20 (![] : Fin 0 → Fin S64x20.rank)
  reducesTo_S64x20_S_d0_1 : S64x20.ReducesTo [0, 1] S_

variable [Facts]

def fn {F : FTy → Type} [FloatOps F] (main_arg0 : FVec F S16x64x256x256 .f32) (main_arg1 : FVec F S64x20 .f32) (main_arg2 : FVec F S64x20 .f32) (main_arg3 : IVec S20 32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  let main_v4 : FVec F S64x20 .f32 := Host.absf main_arg1
  let main_cst_0 : FVec F S_ .f32 := constant S_ .f32 0x7F800000#32
  let main_v5 : FVec F S64x20 .f32 := broadcastInDim S64x20 ![] bcast_S_S64x20 main_cst_0
  let main_v6 : IVec S64x20 1 := cmpf .olt main_v4 main_v5
  let main_c_1 : IVec S_ 1 := constantI S_ 1 1#1
  let main_v7 : IVec S_ 1 := (fun x v => Host.reduce IntOp.andi x v reducesTo_S64x20_S_d0_1 h_S_) main_v6 main_c_1
  let main_v8 : IVec S_ 1 := andi main_v3 main_v7
  let main_v9 : FVec F S64x20 .f32 := Host.absf main_arg2
  let main_cst_2 : FVec F S_ .f32 := constant S_ .f32 0x7F800000#32
  let main_v10 : FVec F S64x20 .f32 := broadcastInDim S64x20 ![] bcast_S_S64x20 main_cst_2
  let main_v11 : IVec S64x20 1 := cmpf .olt main_v9 main_v10
  let main_c_3 : IVec S_ 1 := constantI S_ 1 1#1
  let main_v12 : IVec S_ 1 := (fun x v => Host.reduce IntOp.andi x v reducesTo_S64x20_S_d0_1 h_S_) main_v11 main_c_3
  let main_v13 : IVec S_ 1 := andi main_v8 main_v12
  main_v13
-- ==== Kernel.lean ====
abbrev S16x64x256x256 : Shape := ⟨4, ![16, 64, 256, 256]⟩
abbrev S64x20 : Shape := ⟨2, ![64, 20]⟩
abbrev S20 : Shape := ⟨1, ![20]⟩
abbrev S_ : Shape := ⟨0, ![]⟩
abbrev S1x20 : Shape := ⟨2, ![1, 20]⟩
abbrev S64x1 : Shape := ⟨2, ![64, 1]⟩
abbrev S64x19 : Shape := ⟨2, ![64, 19]⟩
abbrev S1x16x256x256 : Shape := ⟨4, ![1, 16, 256, 256]⟩
abbrev S16x1 : Shape := ⟨2, ![16, 1]⟩
abbrev S16x19 : Shape := ⟨2, ![16, 19]⟩
abbrev S16x256x256 : Shape := ⟨3, ![16, 256, 256]⟩
abbrev S16 : Shape := ⟨1, ![16]⟩
abbrev S16x1x1 : Shape := ⟨3, ![16, 1, 1]⟩

abbrev nBuf : Space → Nat
  | .hbm => 22
  | .vmem => 12
  | .smem => 0
  | _ => 0

abbrev bufTy : (tb : Table) → Fin (tcTables nBuf tb) → BufTy
  | .hbm, ⟨0, _⟩ => ⟨S16x64x256x256, .f32⟩
  | .hbm, ⟨1, _⟩ => ⟨S64x20, .f32⟩
  | .hbm, ⟨2, _⟩ => ⟨S64x20, .f32⟩
  | .hbm, ⟨3, _⟩ => ⟨S20, .i32⟩
  | .hbm, ⟨4, _⟩ => ⟨S64x20, .f32⟩
  | .hbm, ⟨5, _⟩ => ⟨S_, .f32⟩
  | .hbm, ⟨6, _⟩ => ⟨S64x20, .f32⟩
  | .hbm, ⟨7, _⟩ => ⟨S64x20, .f32⟩
  | .hbm, ⟨8, _⟩ => ⟨S20, .f32⟩
  | .hbm, ⟨9, _⟩ => ⟨S1x20, .f32⟩
  | .hbm, ⟨10, _⟩ => ⟨S64x20, .f32⟩
  | .hbm, ⟨11, _⟩ => ⟨S64x20, .f32⟩
  | .hbm, ⟨12, _⟩ => ⟨S64x20, .f32⟩
  | .hbm, ⟨13, _⟩ => ⟨S64x1, .f32⟩
  | .hbm, ⟨14, _⟩ => ⟨S64x1, .f32⟩
  | .hbm, ⟨15, _⟩ => ⟨S64x19, .f32⟩
  | .hbm, ⟨16, _⟩ => ⟨S64x19, .f32⟩
  | .hbm, ⟨17, _⟩ => ⟨S64x19, .f32⟩
  | .hbm, ⟨18, _⟩ => ⟨S64x19, .f32⟩
  | .hbm, ⟨19, _⟩ => ⟨S64x19, .f32⟩
  | .hbm, ⟨20, _⟩ => ⟨S64x19, .f32⟩
  | .hbm, ⟨21, _⟩ => ⟨S16x64x256x256, .f32⟩
  | .local _ .vmem, ⟨0, _⟩ => ⟨S1x16x256x256, .f32⟩
  | .local _ .vmem, ⟨1, _⟩ => ⟨S1x16x256x256, .f32⟩
  | .local _ .vmem, ⟨2, _⟩ => ⟨S16x1, .f32⟩
  | .local _ .vmem, ⟨3, _⟩ => ⟨S16x1, .f32⟩
  | .local _ .vmem, ⟨4, _⟩ => ⟨S16x1, .f32⟩
  | .local _ .vmem, ⟨5, _⟩ => ⟨S16x1, .f32⟩
  | .local _ .vmem, ⟨6, _⟩ => ⟨S16x19, .f32⟩
  | .local _ .vmem, ⟨7, _⟩ => ⟨S16x19, .f32⟩
  | .local _ .vmem, ⟨8, _⟩ => ⟨S16x19, .f32⟩
  | .local _ .vmem, ⟨9, _⟩ => ⟨S16x19, .f32⟩
  | .local _ .vmem, ⟨10, _⟩ => ⟨S1x16x256x256, .f32⟩
  | .local _ .vmem, ⟨11, _⟩ => ⟨S1x16x256x256, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_v1 : Ref sig .tc := ⟨.hbm, 16, rfl⟩
abbrev main_v10 : Ref sig .tc := ⟨.hbm, 17, rfl⟩
abbrev main_call1_v0 : Ref sig .tc := ⟨.hbm, 18, rfl⟩
abbrev main_call1_v1 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x19 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x19 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S64x20 : S_.BroadcastsInDim S64x20 (![] : Fin 0 → Fin S64x20.rank)
  bcast_S20_S1x20_1 : S20.BroadcastsInDim S1x20 (![1] : Fin 1 → Fin S1x20.rank)
  bcast_S1x20_S64x20_0_1 : S1x20.BroadcastsInDim S64x20 (![0, 1] : Fin 2 → Fin S64x20.rank)
  slices_S64x20_S64x1_0_0 : S64x20.Slices ![0, 0] S64x1
  slices_S64x20_S64x19_0_1 : S64x20.Slices ![0, 1] S64x19
  slices_S64x20_S64x19_0_0 : S64x20.Slices ![0, 0] S64x19
  inb_S1x16x256x256_S1x16x256x256_0_0_0_0 : ∀ a, (![0, 0, 0, 0] : Fin 4 → Nat) a + S1x16x256x256.size a ≤ S1x16x256x256.size a
  h_S1x16x256x256 : 0 < S1x16x256x256.numel
  shapeCasts_S1x16x256x256_S16x256x256 : S1x16x256x256.ShapeCasts S16x256x256
  inb_S16x1_S16x1_0_0 : ∀ a, (![0, 0] : Fin 2 → Nat) a + S16x1.size a ≤ S16x1.size a
  h_S16x1 : 0 < S16x1.numel
  shapeCasts_S16x1_S16 : S16x1.ShapeCasts S16
  shapeCasts_S16_S16x1x1 : S16.ShapeCasts S16x1x1
  shapeCasts_S16x1x1_S16x1x1 : S16x1x1.ShapeCasts S16x1x1
  broadcasts_S16x1x1_S16x256x256 : S16x1x1.Broadcasts S16x256x256
  natLt_1_32 : 1 < 32
  inb_S16x19_S16x1_0_0 : ∀ a, (![0, 0] : Fin 2 → Nat) a + S16x1.size a ≤ S16x19.size a
  inb_S16x19_S16x1_0_1 : ∀ a, (![0, 1] : Fin 2 → Nat) a + S16x1.size a ≤ S16x19.size a
  inb_S16x19_S16x1_0_2 : ∀ a, (![0, 2] : Fin 2 → Nat) a + S16x1.size a ≤ S16x19.size a
  inb_S16x19_S16x1_0_3 : ∀ a, (![0, 3] : Fin 2 → Nat) a + S16x1.size a ≤ S16x19.size a
  inb_S16x19_S16x1_0_4 : ∀ a, (![0, 4] : Fin 2 → Nat) a + S16x1.size a ≤ S16x19.size a
  inb_S16x19_S16x1_0_5 : ∀ a, (![0, 5] : Fin 2 → Nat) a + S16x1.size a ≤ S16x19.size a
  inb_S16x19_S16x1_0_6 : ∀ a, (![0, 6] : Fin 2 → Nat) a + S16x1.size a ≤ S16x19.size a
  inb_S16x19_S16x1_0_7 : ∀ a, (![0, 7] : Fin 2 → Nat) a + S16x1.size a ≤ S16x19.size a
  inb_S16x19_S16x1_0_8 : ∀ a, (![0, 8] : Fin 2 → Nat) a + S16x1.size a ≤ S16x19.size a
  inb_S16x19_S16x1_0_9 : ∀ a, (![0, 9] : Fin 2 → Nat) a + S16x1.size a ≤ S16x19.size a
  inb_S16x19_S16x1_0_10 : ∀ a, (![0, 10] : Fin 2 → Nat) a + S16x1.size a ≤ S16x19.size a
  inb_S16x19_S16x1_0_11 : ∀ a, (![0, 11] : Fin 2 → Nat) a + S16x1.size a ≤ S16x19.size a
  inb_S16x19_S16x1_0_12 : ∀ a, (![0, 12] : Fin 2 → Nat) a + S16x1.size a ≤ S16x19.size a
  inb_S16x19_S16x1_0_13 : ∀ a, (![0, 13] : Fin 2 → Nat) a + S16x1.size a ≤ S16x19.size a
  inb_S16x19_S16x1_0_14 : ∀ a, (![0, 14] : Fin 2 → Nat) a + S16x1.size a ≤ S16x19.size a
  inb_S16x19_S16x1_0_15 : ∀ a, (![0, 15] : Fin 2 → Nat) a + S16x1.size a ≤ S16x19.size a
  inb_S16x19_S16x1_0_16 : ∀ a, (![0, 16] : Fin 2 → Nat) a + S16x1.size a ≤ S16x19.size a
  inb_S16x19_S16x1_0_17 : ∀ a, (![0, 17] : Fin 2 → Nat) a + S16x1.size a ≤ S16x19.size a
  inb_S16x19_S16x1_0_18 : ∀ a, (![0, 18] : Fin 2 → Nat) a + S16x1.size a ≤ S16x19.size a
  shapeCasts_S16x256x256_S1x16x256x256 : S16x256x256.ShapeCasts S1x16x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256x256.size a ≤ S16x64x256x256.size a
  hwx0_0 : ∀ i : grid0.Coords, EltTy.bits .f32 = 32 ∨ (Rect.block (s := S16x64x256x256) S1x16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1.size a ≤ S64x1.size a
  hwx0_1 : ∀ i : grid0.Coords, EltTy.bits .f32 = 32 ∨ (Rect.block (s := S64x1) S16x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S64x1.size a
  hwx0_2 : ∀ i : grid0.Coords, EltTy.bits .f32 = 32 ∨ (Rect.block (s := S64x1) S16x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x19.size a ≤ S64x19.size a
  hwx0_3 : ∀ i : grid0.Coords, EltTy.bits .f32 = 32 ∨ (Rect.block (s := S64x19) S16x19.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x19.size a ≤ S64x19.size a
  hwx0_4 : ∀ i : grid0.Coords, EltTy.bits .f32 = 32 ∨ (Rect.block (s := S64x19) S16x19.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x256x256.size a ≤ S16x64x256x256.size a
  hwx0_5 : ∀ i : grid0.Coords, EltTy.bits .f32 = 32 ∨ (Rect.block (s := S16x64x256x256) S1x16x256x256.size (cc0_transform_5 i) (hinb0_5 i)).WholeWords (EltTy.packing .f32)

variable [Facts₀]

abbrev win0_0 : Pipeline.Window sig grid0 :=
  Pipeline.Window.ofSpec (Memref.whole main_arg0) S1x16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S16x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S16x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S16x19.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S16x19.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x16x256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x64x256x256 : Shape := ⟨4, ![16, 64, 256, 256]⟩
abbrev S64x20 : Shape := ⟨2, ![64, 20]⟩
abbrev S20 : Shape := ⟨1, ![20]⟩
abbrev S_ : Shape := ⟨0, ![]⟩
abbrev S1x20 : Shape := ⟨2, ![1, 20]⟩
abbrev S64 : Shape := ⟨1, ![64]⟩
abbrev S1x64x1x1 : Shape := ⟨4, ![1, 64, 1, 1]⟩
abbrev S16x64x256x256x1 : Shape := ⟨5, ![16, 64, 256, 256, 1]⟩
abbrev S16x64x256x256x2 : Shape := ⟨5, ![16, 64, 256, 256, 2]⟩

abbrev nBuf : Space → Nat
  | .hbm => 71
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S64x20, .f32⟩
  | .hbm, ⟨2, _⟩ => ⟨S64x20, .f32⟩
  | .hbm, ⟨3, _⟩ => ⟨S20, .i32⟩
  | .hbm, ⟨4, _⟩ => ⟨S64x20, .f32⟩
  | .hbm, ⟨5, _⟩ => ⟨S_, .f32⟩
  | .hbm, ⟨6, _⟩ => ⟨S64x20, .f32⟩
  | .hbm, ⟨7, _⟩ => ⟨S64x20, .f32⟩
  | .hbm, ⟨8, _⟩ => ⟨S20, .f32⟩
  | .hbm, ⟨9, _⟩ => ⟨S1x20, .f32⟩
  | .hbm, ⟨10, _⟩ => ⟨S64x20, .f32⟩
  | .hbm, ⟨11, _⟩ => ⟨S64x20, .f32⟩
  | .hbm, ⟨12, _⟩ => ⟨S64x20, .f32⟩
  | .hbm, ⟨13, _⟩ => ⟨S_, .f32⟩
  | .hbm, ⟨14, _⟩ => ⟨S16x64x256x256, .f32⟩
  | .hbm, ⟨15, _⟩ => ⟨S16x64x256x256, .f32⟩
  | .hbm, ⟨16, _⟩ => ⟨S16x64x256x256, .f32⟩
  | .hbm, ⟨17, _⟩ => ⟨S16x64x256x256, .i32⟩
  | .hbm, ⟨18, _⟩ => ⟨S_, .i32⟩
  | .hbm, ⟨19, _⟩ => ⟨S16x64x256x256, .i32⟩
  | .hbm, ⟨20, _⟩ => ⟨S16x64x256x256, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S16x64x256x256, .i32⟩
  | .hbm, ⟨25, _⟩ => ⟨S16x64x256x256, .i32⟩
  | .hbm, ⟨26, _⟩ => ⟨S_, .i32⟩
  | .hbm, ⟨27, _⟩ => ⟨S16x64x256x256, .i32⟩
  | .hbm, ⟨28, _⟩ => ⟨S16x64x256x256, .i32⟩
  | .hbm, ⟨29, _⟩ => ⟨S64, .i32⟩
  | .hbm, ⟨30, _⟩ => ⟨S1x64x1x1, .i32⟩
  | .hbm, ⟨31, _⟩ => ⟨S_, .i32⟩
  | .hbm, ⟨32, _⟩ => ⟨S1x64x1x1, .i32⟩
  | .hbm, ⟨33, _⟩ => ⟨S1x64x1x1, .i1⟩
  | .hbm, ⟨34, _⟩ => ⟨S_, .i32⟩
  | .hbm, ⟨35, _⟩ => ⟨S1x64x1x1, .i32⟩
  | .hbm, ⟨36, _⟩ => ⟨S1x64x1x1, .i32⟩
  | .hbm, ⟨37, _⟩ => ⟨S1x64x1x1, .i32⟩
  | .hbm, ⟨38, _⟩ => ⟨S_, .i32⟩
  | .hbm, ⟨39, _⟩ => ⟨S16x64x256x256, .i32⟩
  | .hbm, ⟨40, _⟩ => ⟨S16x64x256x256, .i1⟩
  | .hbm, ⟨41, _⟩ => ⟨S_, .i32⟩
  | .hbm, ⟨42, _⟩ => ⟨S16x64x256x256, .i32⟩
  | .hbm, ⟨43, _⟩ => ⟨S16x64x256x256, .i32⟩
  | .hbm, ⟨44, _⟩ => ⟨S16x64x256x256, .i32⟩
  | .hbm, ⟨45, _⟩ => ⟨S16x64x256x256, .i32⟩
  | .hbm, ⟨46, _⟩ => ⟨S16x64x256x256x1, .i32⟩
  | .hbm, ⟨47, _⟩ => ⟨S16x64x256x256x1, .i32⟩
  | .hbm, ⟨48, _⟩ => ⟨S16x64x256x256x2, .i32⟩
  | .hbm, ⟨49, _⟩ => ⟨S16x64x256x256, .f32⟩
  | .hbm, ⟨50, _⟩ => ⟨S_, .i32⟩
  | .hbm, ⟨51, _⟩ => ⟨S1x64x1x1, .i32⟩
  | .hbm, ⟨52, _⟩ => ⟨S1x64x1x1, .i1⟩
  | .hbm, ⟨53, _⟩ => ⟨S_, .i32⟩
  | .hbm, ⟨54, _⟩ => ⟨S1x64x1x1, .i32⟩
  | .hbm, ⟨55, _⟩ => ⟨S1x64x1x1, .i32⟩
  | .hbm, ⟨56, _⟩ => ⟨S1x64x1x1, .i32⟩
  | .hbm, ⟨57, _⟩ => ⟨S_, .i32⟩
  | .hbm, ⟨58, _⟩ => ⟨S16x64x256x256, .i32⟩
  | .hbm, ⟨59, _⟩ => ⟨S16x64x256x256, .i1⟩
  | .hbm, ⟨60, _⟩ => ⟨S_, .i32⟩
  | .hbm, ⟨61, _⟩ => ⟨S16x64x256x256, .i32⟩
  | .hbm, ⟨62, _⟩ => ⟨S16x64x256x256, .i32⟩
  | .hbm, ⟨63, _⟩ => ⟨S16x64x256x256, .i32⟩
  | .hbm, ⟨64, _⟩ => ⟨S16x64x256x256, .i32⟩
  | .hbm, ⟨65, _⟩ => ⟨S16x64x256x256x1, .i32⟩
  | .hbm, ⟨66, _⟩ => ⟨S16x64x256x256x1, .i32⟩
  | .hbm, ⟨67, _⟩ => ⟨S16x64x256x256x2, .i32⟩
  | .hbm, ⟨68, _⟩ => ⟨S16x64x256x256, .f32⟩
  | .hbm, ⟨69, _⟩ => ⟨S16x64x256x256, .f32⟩
  | .hbm, ⟨70, _⟩ => ⟨S16x64x256x256, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_c_2 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_9 : Ref sig .tc := ⟨.hbm, 57, rfl⟩
abbrev main_v37 : Ref sig .tc := ⟨.hbm, 58, rfl⟩
abbrev main_v38 : Ref sig .tc := ⟨.hbm, 59, rfl⟩
abbrev main_c_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩

abbrev nD : Nat := 1
abbrev τ : Topo := Topo.v7x

variable {F : FTy → Type} [FloatOps F]

class Facts₀ : Prop where
  bcast_S_S64x20 : S_.BroadcastsInDim S64x20 (![] : Fin 0 → Fin S64x20.rank)
  bcast_S20_S1x20_1 : S20.BroadcastsInDim S1x20 (![1] : Fin 1 → Fin S1x20.rank)
  bcast_S1x20_S64x20_0_1 : S1x20.BroadcastsInDim S64x20 (![0, 1] : Fin 2 → Fin S64x20.rank)
  bcast_S_S16x64x256x256 : S_.BroadcastsInDim S16x64x256x256 (![] : Fin 0 → Fin S16x64x256x256.rank)
  shapeCasts_S64_S1x64x1x1 : S64.ShapeCasts S1x64x1x1
  bcast_S_S1x64x1x1 : S_.BroadcastsInDim S1x64x1x1 (![] : Fin 0 → Fin S1x64x1x1.rank)
  bcast_S1x64x1x1_S16x64x256x256_0_1_2_3 : S1x64x1x1.BroadcastsInDim S16x64x256x256 (![0, 1, 2, 3] : Fin 4 → Fin S16x64x256x256.rank)
  bcast_S16x64x256x256_S16x64x256x256x1_0_1_2_3 : S16x64x256x256.BroadcastsInDim S16x64x256x256x1 (![0, 1, 2, 3] : Fin 4 → Fin S16x64x256x256x1.rank)
  concatenates_S16x64x256x256x1_S16x64x256x256x1_S16x64x256x256x2_d4 : Shape.Concatenates [S16x64x256x256x1, S16x64x256x256x1] S16x64x256x256x2 4
  gather_S64x20_S16x64x256x256x2_S16x64x256x256_n_01_n_n_01_4_11_wf : GatherDims.WF S64x20 S16x64x256x256x2 S16x64x256x256 [] [0, 1] [] [0, 1] [] 4 ![1, 1]

variable [Facts₀]

def gather_S64x20_S16x64x256x256x2_S16x64x256x256_n_01_n_n_01_4_11 : GatherDims S64x20 S16x64x256x256x2 S16x64x256x256 where
  offsetDims := []
  collapsedSliceDims := [0, 1]
  operandBatchingDims := []
  startIndicesBatchingDims := []
  startIndexMap := [0, 1]
  indexVectorDim := 4
  sliceSizes := ![1, 1]
  wf := gather_S64x20_S16x64x256x256x2_S16x64x256x256_n_01_n_n_01_4_11_wf

class Facts : Prop extends Facts₀ where

variable [Facts]
-- ==== Proof.HostTabs.lean ====
/-
  The tables the kernel's region finds.

  Before the region the host computes, from the two anchor arrays `y`, `y'` and the integer offsets, the
  slope table `W = (y − y') / 0.1` and the intercept table `B = y − (y − y') · offset` (both `[64, 20]`), and
  cuts four arrays out of them: the first columns `W (·, 0)`, `B (·, 0)` and the column increments
  `W (·, k + 1) − W (·, k)`, `B (·, k + 1) − B (·, k)`, `k < 19`.
-/
import proofs.«140695_j74904229642249_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostTabs

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The two anchor arrays and the integer offsets as launched on core `c`. -/
abbrev Y (c : Dev nD) : S64x20.Idx → EReal := m ((c : Thread nD τ).loc main_arg1)
abbrev Y' (c : Dev nD) : S64x20.Idx → EReal := m ((c : Thread nD τ).loc main_arg2)
abbrev Off (c : Dev nD) : S20.Idx → BitVec 32 := m ((c : Thread nD τ).loc main_arg3)

/-- The slope table of the launch contents on core `c`: `(y − y') / 0.1`, entry by entry. -/
def Wt (c : Dev nD) : S64x20.Idx → EReal :=
  Host.divf (F := Ideal) (subf (F := Ideal) (m ((c : Thread nD τ).loc main_arg1)) (m ((c : Thread nD τ).loc main_arg2)))
    (broadcastInDim S64x20 ![] bcast_S_S64x20 (constant (F := Ideal) S_ .f32 0x3DCCCCCD#32))

/-- The intercept table of the launch contents on core `c`: `y − (y − y') · offset`, the offsets (one per column)
    turned into reals and spread down the rows. -/
def Bt (c : Dev nD) : S64x20.Idx → EReal :=
  subf (F := Ideal) (m ((c : Thread nD τ).loc main_arg1))
    (mulf (F := Ideal) (subf (F := Ideal) (m ((c : Thread nD τ).loc main_arg1)) (m ((c : Thread nD τ).loc main_arg2)))
      (broadcastInDim S64x20 ![0, 1] bcast_S1x20_S64x20_0_1
        (broadcastInDim S1x20 ![1] bcast_S20_S1x20_1 (sitofp (F := Ideal) .f32 (m ((c : Thread nD τ).loc main_arg3))))))

/-- The slope table at an entry. -/
theorem Wt_apply (c : Dev nD) (i : S64x20.Idx) :
    Wt m c i = Ideal.div (Y m c i - Y' m c i) (Ideal.ofBits .f32 0x3DCCCCCD#32) := by
  unfold Wt
  show Ideal.div _ (broadcastInDim S64x20 ![] bcast_S_S64x20 (constant (F := Ideal) S_ .f32 0x3DCCCCCD#32) i) = _
  rw [broadcastInDim_apply _ bcast_S_S64x20 _ i (fun a => a.elim0) (fun a => a.elim0)]
  rfl

/-- The intercept table at an entry: column `i 1`'s offset is the integer the offsets array holds there. -/
theorem Bt_apply (c : Dev nD) (i : S64x20.Idx) :
    Bt m c i = Y m c i - (Y m c i - Y' m c i) * ((((Off m c (ix1 (i 1))).toInt : ℝ)) : EReal) := by
  unfold Bt
  show _ - (_ - _) * (broadcastInDim S64x20 ![0, 1] bcast_S1x20_S64x20_0_1
    (broadcastInDim S1x20 ![1] bcast_S20_S1x20_1 (sitofp (F := Ideal) .f32 (m ((c : Thread nD τ).loc main_arg3)))) i) = _
  rw [broadcastInDim_apply _ bcast_S1x20_S64x20_0_1 _ i (ix2 (0 : Fin 1) (i 1)) (fun a => match a with
      | ⟨0, _⟩ => by show 0 = if (1 : Nat) = 1 then 0 else (i 0).val; rw [if_pos rfl]
      | ⟨1, _⟩ => by show (i 1).val = if (20 : Nat) = 1 then 0 else (i 1).val; rw [if_neg (by decide)]),
    broadcastInDim_apply _ bcast_S20_S1x20_1 _ (ix2 (0 : Fin 1) (i 1)) (ix1 (i 1)) (fun a => match a with
      | ⟨0, _⟩ => by show (i 1).val = if (20 : Nat) = 1 then 0 else (i 1).val; rw [if_neg (by decide)])]
  rfl

theorem V_v8 (c : Dev nD) :
    (V m c main_v8 : S64x1.Idx → EReal) = extractStridedSlice S64x1 ![0, 0] (Wt m c) slices_S64x20_S64x1_0_0 := by
  dsimp only [Gen.V]
  simp only [Gen.hostOps0, Gen.hostOps0_1, Gen.hostOps0_2, List.flatten_cons, List.flatten_nil, List.append_nil,
    List.cons_append, List.nil_append]
  after_results
  rfl

theorem V_v9 (c : Dev nD) :
    (V m c main_v9 : S64x1.Idx → EReal) = extractStridedSlice S64x1 ![0, 0] (Bt m c) slices_S64x20_S64x1_0_0 := by
  dsimp only [Gen.V]
  simp only [Gen.hostOps0, Gen.hostOps0_1, Gen.hostOps0_2, List.flatten_cons, List.flatten_nil, List.append_nil,
    List.cons_append, List.nil_append]
  after_results
  rfl

theorem V_v10 (c : Dev nD) :
    (V m c main_v10 : S64x19.Idx → EReal)
      = subf (F := Ideal) (φ := .f32) (extractStridedSlice S64x19 ![0, 1] (Wt m c) slices_S64x20_S64x19_0_1)
          (extractStridedSlice S64x19 ![0, 0] (Wt m c) slices_S64x20_S64x19_0_0) := by
  dsimp only [Gen.V]
  simp only [Gen.hostOps0, Gen.hostOps0_1, Gen.hostOps0_2, List.flatten_cons, List.flatten_nil, List.append_nil,
    List.cons_append, List.nil_append]
  after_results
  rfl

theorem V_v11 (c : Dev nD) :
    (V m c main_v11 : S64x19.Idx → EReal)
      = subf (F := Ideal) (φ := .f32) (extractStridedSlice S64x19 ![0, 1] (Bt m c) slices_S64x20_S64x19_0_1)
          (extractStridedSlice S64x19 ![0, 0] (Bt m c) slices_S64x20_S64x19_0_0) := by
  dsimp only [Gen.V]
  simp only [Gen.hostOps0, Gen.hostOps0_1, Gen.hostOps0_2, List.flatten_cons, List.flatten_nil, List.append_nil,
    List.cons_append, List.nil_append]
  after_results
  rfl

/-- The first-column arrays at row `r`. -/
theorem V_v8_apply (c : Dev nD) (r : Fin 64) : V m c main_v8 (ix2 r (0 : Fin 1)) = Wt m c (ix2 r (0 : Fin 20)) := by
  rw [V_v8]; exact slice2_axis1_apply 0 _ _ r 0 0 rfl

theorem V_v9_apply (c : Dev nD) (r : Fin 64) : V m c main_v9 (ix2 r (0 : Fin 1)) = Bt m c (ix2 r (0 : Fin 20)) := by
  rw [V_v9]; exact slice2_axis1_apply 0 _ _ r 0 0 rfl

/-- The increment arrays at row `r`, column `k`: the table's entry at `k + 1` less the one at `k`. -/
theorem V_v10_apply (c : Dev nD) (r : Fin 64) (k : Fin 19) :
    V m c main_v10 (ix2 r k) = Wt m c (ix2 r k.succ) - Wt m c (ix2 r k.castSucc) := by
  rw [V_v10, subf_apply, slice2_axis1_apply 1 _ _ r k k.succ (by simp; omega),
    slice2_axis1_apply 0 _ _ r k k.castSucc (by simp)]

theorem V_v11_apply (c : Dev nD) (r : Fin 64) (k : Fin 19) :
    V m c main_v11 (ix2 r k) = Bt m c (ix2 r k.succ) - Bt m c (ix2 r k.castSucc) := by
  rw [V_v11, subf_apply, slice2_axis1_apply 1 _ _ r k k.succ (by simp; omega),
    slice2_axis1_apply 0 _ _ r k k.castSucc (by simp)]

end Cert.KernelIdeal.HostTabs

end
-- ==== Proof.Spec.lean ====
/-
  The function both programs compute, and the pieces it is built from.

  An entry `x` of the input falls into one of twenty bins of width `0.1`: its bin is `⌊x / 0.1⌋ + 10`
  clamped into `[0, 19]` (the quotient by the single-precision literal nearest `0.1`, the floor taken
  as a signed 32-bit word). Each channel `c` has a table of twenty slopes `W (c, ·)` and twenty
  intercepts `B (c, ·)`, and the result at `(b, c, h, w)` is `W (c, k) · x + B (c, k)` for `k` the bin of
  `x = X (b, c, h, w)`.

  One program looks the table entry up; the other adds up the table's increments,
  `W (c, 0) + Σ_{m = 1}^{19} (W (c, m) − W (c, m − 1)) · [m ≤ k]`, which telescopes to `W (c, k)` when
  the entries are real numbers.
-/
import Idealize.ShloMosaic.PureOps.Ideal
import Idealize.ShloMosaic.Lib.ValueIdx

noncomputable section

namespace Cert.Mtlu

open Idealize.ShloMosaic Idealize.ShloMosaic.ValueIdx

/-- The input's shape `[16, 64, 256, 256]` and the tables' shape `[64, 20]`. -/
abbrev SX : Shape := ⟨4, ![16, 64, 256, 256]⟩
abbrev ST : Shape := ⟨2, ![64, 20]⟩

/-- The bin of a value `x` as a signed 32-bit word: `⌊x / 0.1⌋` (rounded toward zero and clamped into
    the word's range where it does not fit), plus ten, clamped into `[0, 19]`. -/
def bin (x : EReal) : BitVec 32 :=
  IntOp.minsi 19#32 (IntOp.maxsi 0#32 (IntOp.addi
    (Ideal.fptosi 32 (Ideal.liftRound Int.floor (Ideal.div x (Ideal.ofBits .f32 0x3DCCCCCD#32)))) 10#32))

/-- The indicator of `m ≤ v` (as signed words), as the real number `0` or `1`: the comparison's bit
    widened to a word and read as an integer. -/
def step (v m : BitVec 32) : EReal := ((((IntOp.cmpi .sge v m).setWidth 32).toInt : ℝ) : EReal)

/-- `a + Σ_{m = 1}^{19} d (m − 1) · [m ≤ v]`, the terms added from left to right. -/
def acc19 (a : EReal) (d : Fin 19 → EReal) (v : BitVec 32) : EReal :=
  a + d 0 * step v 1#32 + d 1 * step v 2#32 + d 2 * step v 3#32 + d 3 * step v 4#32 + d 4 * step v 5#32 + d 5 * step v 6#32 + d 6 * step v 7#32 + d 7 * step v 8#32 + d 8 * step v 9#32 + d 9 * step v 10#32 + d 10 * step v 11#32 + d 11 * step v 12#32 + d 12 * step v 13#32 + d 13 * step v 14#32 + d 14 * step v 15#32 + d 15 * step v 16#32 + d 16 * step v 17#32 + d 17 * step v 18#32 + d 18 * step v 19#32

/-- The table column the bin of `x` names. -/
def binFin (x : EReal) : Fin 20 := ⟨(bin x).toNat % 20, Nat.mod_lt _ (by decide)⟩

/-- THE RESULT as one function of the input `X` and the two tables: at `(b, c, h, w)` the slope and the
    intercept of channel `c` at the bin of the entry, applied to the entry. -/
def G (X : SX.Idx → EReal) (W B : ST.Idx → EReal) : SX.Idx → EReal :=
  fun i => W (ix2 (n0 := 64) (n1 := 20) (i 1) (binFin (X i))) * X i
    + B (ix2 (n0 := 64) (n1 := 20) (i 1) (binFin (X i)))

/-- The bin is a word between `0` and `19`. -/
theorem bin_range (x : EReal) : 0 ≤ (bin x).toInt ∧ (bin x).toInt ≤ 19 := by
  unfold bin IntOp.minsi IntOp.maxsi
  generalize IntOp.addi _ _ = z
  simp only [BitVec.slt]
  split <;> split <;> simp_all <;> omega

theorem bin_toNat_lt (x : EReal) : (bin x).toNat < 20 := by
  have h := bin_range x
  have := BitVec.toInt_eq_toNat_cond (bin x)
  split at this <;> omega

theorem binFin_val (x : EReal) : (binFin x).val = (bin x).toNat := by
  unfold binFin; exact Nat.mod_eq_of_lt (bin_toNat_lt x)

end Cert.Mtlu

end
-- ==== Proof.Law.lean ====
/-
  The telescoping law.

  For real numbers `T 0, …, T 19` and a bin `k` in `[0, 19]`, adding to `T 0` the increments
  `T m − T (m − 1)` for exactly those `m` in `1 … 19` with `m ≤ k` gives `T k`: after the first `n`
  increments the running sum is `T (min k n)`. The sum is taken over the extended reals, where it is a
  sum of real numbers because every `T m` is real: that is the one place finiteness is used
  (`(a − b) + b = a` fails at the infinities).
-/
import proofs.«140695_j74904229642249_2_alg».proof.Proof.Spec
import Idealize.ShloMosaic.Lib.WordArith

noncomputable section

namespace Cert.Mtlu

open Idealize.ShloMosaic Idealize.ShloMosaic.ValueIdx

/-- The indicator is `1` where `m ≤ v`. -/
theorem step_of_le (v m : BitVec 32) (h : m.toInt ≤ v.toInt) : step v m = ((1 : ℝ) : EReal) := by
  have hs : m.sle v = true := by simp [BitVec.sle, h]
  simp [step, IntOp.cmpi, hs]

/-- The indicator is `0` where `v < m`. -/
theorem step_of_lt (v m : BitVec 32) (h : v.toInt < m.toInt) : step v m = ((0 : ℝ) : EReal) := by
  have hs : m.sle v = false := by simp [BitVec.sle]; omega
  simp [step, IntOp.cmpi, hs]

/-- The running sum after `n` increments: `a + Σ_{m = 1}^{n} d (m − 1) · [m ≤ v]`, added left to right. -/
def tele (a : EReal) (d : ℕ → EReal) (v : BitVec 32) : ℕ → EReal
  | 0 => a
  | n + 1 => tele a d v n + d n * step v (BitVec.ofNat 32 (n + 1))

/-- The running sum after `n ≤ 19` increments of a real sequence `T` is `T (min k n)`, `k` the value of the
    word `v ≥ 0`. -/
theorem tele_eq (T : ℕ → ℝ) (a : EReal) (d : ℕ → EReal) (v : BitVec 32)
    (ha : a = ((T 0 : ℝ) : EReal)) (hd : ∀ n, n < 19 → d n = ((T (n + 1) : ℝ) : EReal) - ((T n : ℝ) : EReal))
    (hv : 0 ≤ v.toInt) : ∀ n, n ≤ 19 → tele a d v n = ((T (min v.toInt.toNat n) : ℝ) : EReal) := by
  intro n
  induction n with
  | zero => intro _; simp [tele, ha]
  | succ n ih =>
    intro hn
    have hm : (BitVec.ofNat 32 (n + 1)).toInt = ((n + 1 : ℕ) : ℤ) :=
      WordArith.toInt_ofNat_small (n + 1) (by omega)
    rw [tele, ih (by omega), hd n (by omega)]
    by_cases hk : ((n + 1 : ℕ) : ℤ) ≤ v.toInt
    · rw [step_of_le v _ (by rw [hm]; exact hk)]
      have e1 : min v.toInt.toNat n = n := by omega
      have e2 : min v.toInt.toNat (n + 1) = n + 1 := by omega
      rw [e1, e2, ← EReal.coe_sub, ← EReal.coe_mul, ← EReal.coe_add]
      congr 1; ring
    · rw [step_of_lt v _ (by rw [hm]; omega)]
      have e1 : min v.toInt.toNat n = v.toInt.toNat := by omega
      have e2 : min v.toInt.toNat (n + 1) = v.toInt.toNat := by omega
      rw [e1, e2, EReal.coe_zero, mul_zero, add_zero]

/-- The nineteen-term sum is the running sum after nineteen increments. -/
theorem acc19_eq_tele (a : EReal) (d : Fin 19 → EReal) (v : BitVec 32) :
    acc19 a d v = tele a (fun n => if h : n < 19 then d ⟨n, h⟩ else 0) v 19 := rfl

/-- THE LAW: for a row of twenty real table entries `T`, its first entry `a` and its nineteen increments `d`,
    the nineteen-term sum at the bin of `x` is the row's entry at that bin. -/
theorem acc19_eq (T : Fin 20 → ℝ) (a : EReal) (d : Fin 19 → EReal) (x : EReal)
    (ha : a = ((T 0 : ℝ) : EReal))
    (hd : ∀ k : Fin 19, d k = ((T k.succ : ℝ) : EReal) - ((T k.castSucc : ℝ) : EReal)) :
    acc19 a d (bin x) = ((T (binFin x) : ℝ) : EReal) := by
  have hr := bin_range x
  rw [acc19_eq_tele,
    tele_eq (fun n => if h : n < 20 then T ⟨n, h⟩ else 0) a _ (bin x) (by simpa using ha) ?_ hr.1 19 (le_refl _)]
  · have hlt := bin_toNat_lt x
    have hk : (bin x).toInt.toNat = (bin x).toNat := by
      have := BitVec.toInt_eq_toNat_cond (bin x)
      split at this <;> omega
    have hmin : min (bin x).toInt.toNat 19 = (bin x).toNat := by omega
    rw [hmin, dif_pos hlt]
    congr 2
    exact Fin.ext (binFin_val x).symm
  · intro n hn
    have h1 : n + 1 < 20 := by omega
    have h2 : n < 20 := by omega
    simp only [dif_pos hn, dif_pos h1, dif_pos h2]
    exact hd ⟨n, hn⟩

/-- THE BRIDGE AT ONE INDEX. At the index `i` of channel `r = i 1`, let `x` be the input's entry, `a`, `b` the first
    entries of the channel's rows of the two tables and `dw`, `db` the rows' nineteen increments. If the rows are
    real numbers, the incremental form `(a + Σ dw·[…]) · x + (b + Σ db·[…])` is the looked-up form `G` at `i`. -/
theorem point_eq (X : SX.Idx → EReal) (W B : ST.Idx → EReal) (i : SX.Idx)
    (hW : ∀ k : Fin 20, ∃ r : ℝ, W (ix2 (n0 := 64) (n1 := 20) (i 1) k) = ((r : ℝ) : EReal))
    (hB : ∀ k : Fin 20, ∃ r : ℝ, B (ix2 (n0 := 64) (n1 := 20) (i 1) k) = ((r : ℝ) : EReal))
    (x a b : EReal) (dw db : Fin 19 → EReal) (hx : x = X i)
    (ha : a = W (ix2 (n0 := 64) (n1 := 20) (i 1) 0)) (hb : b = B (ix2 (n0 := 64) (n1 := 20) (i 1) 0))
    (hdw : ∀ k : Fin 19, dw k = W (ix2 (n0 := 64) (n1 := 20) (i 1) k.succ) - W (ix2 (n0 := 64) (n1 := 20) (i 1) k.castSucc))
    (hdb : ∀ k : Fin 19, db k = B (ix2 (n0 := 64) (n1 := 20) (i 1) k.succ) - B (ix2 (n0 := 64) (n1 := 20) (i 1) k.castSucc)) :
    acc19 a dw (bin x) * x + acc19 b db (bin x) = G X W B i := by
  choose TW hTW using hW
  choose TB hTB using hB
  rw [acc19_eq TW a dw x (by rw [ha, hTW]) (fun k => by rw [hdw, hTW, hTW]),
    acc19_eq TB b db x (by rw [hb, hTB]) (fun k => by rw [hdb, hTB, hTB])]
  unfold G
  rw [← hx, hTW, hTB]

end Cert.Mtlu

end
-- ==== Proof.Blocks.lean ====
/-
  From the blocks to the whole array.

  The grid has 4 × 16 points `(ct, b)`; point `(ct, b)` works on the block of batch `b` and channels
  `16·ct … 16·ct + 15`: it reads that block of the input, rows `16·ct … 16·ct + 15` of the four table arrays, and
  writes the same block of the result. Entry `(0, p, h, w)` of a block is entry `(b, 16·ct + p, h, w)` of the
  array, and row `p` of a table block is row `16·ct + p`. So what a point writes back is the block of ONE
  function `G` of the whole arrays (the bridge at an index, at channel `16·ct + p`), and the 64 blocks tile the
  result: the result array is `G`.
-/
import proofs.«140695_j74904229642249_2_alg».proof.Proof.Gen.KernelIdeal.Value
import proofs.«140695_j74904229642249_2_alg».proof.Proof.HostTabs
import proofs.«140695_j74904229642249_2_alg».proof.Proof.Law

set_option maxRecDepth 16384

noncomputable section

namespace Cert.KernelIdeal.Blocks

open Cert.KernelIdeal Cert.KernelIdeal.Gen Cert.KernelIdeal.HostTabs Cert.Mtlu
open Idealize.ShloMosaic Idealize.ShloMosaic.TcCoe Idealize.SL.Sem Idealize.ShloMosaic.ValueIdx
open Idealize.ShloMosaic.Pipeline (Dat)

/-- The body's result at an index of the output block, in the incremental form: the statement the module on
    the body at an index proves. -/
def BodyAt : Prop :=
  ∀ (x0 : Vec Ideal S1x16x256x256 .f32) (x1 x2 : Vec Ideal S16x1 .f32) (x3 x4 : Vec Ideal S16x19 .f32)
    (p : Fin 16) (h w : Fin 256),
    out0_5 (F := Ideal) x0 x1 x2 x3 x4 (ix4 0 p h w)
      = acc19 (x1 (ix2 p 0)) (fun k => x3 (ix2 p k)) (bin (x0 (ix4 0 p h w))) * x0 (ix4 0 p h w)
        + acc19 (x2 (ix2 p 0)) (fun k => x4 (ix2 p k)) (bin (x0 (ix4 0 p h w)))

/-- The same at any index of the block: its leading coordinate is `0`. -/
theorem bodyAt_idx (hb : BodyAt) (x0 : Vec Ideal S1x16x256x256 .f32) (x1 x2 : Vec Ideal S16x1 .f32)
    (x3 x4 : Vec Ideal S16x19 .f32) (y : S1x16x256x256.Idx) :
    out0_5 (F := Ideal) x0 x1 x2 x3 x4 y
      = acc19 (x1 (ix2 (y 1) 0)) (fun k => x3 (ix2 (y 1) k)) (bin (x0 y)) * x0 y
        + acc19 (x2 (ix2 (y 1) 0)) (fun k => x4 (ix2 (y 1) k)) (bin (x0 y)) := by
  obtain ⟨q, p, h, w, rfl⟩ : ∃ (q : Fin 1) (p : Fin 16) (h w : Fin 256), y = ix4 q p h w :=
    ⟨y 0, y 1, y 2, y 3, eq_ix4 y⟩
  obtain rfl : q = 0 := Subsingleton.elim _ _
  exact hb x0 x1 x2 x3 x4 p h w

variable (m : (ℓ : Loc nD τ sig) → Buf (Elt Ideal) ℓ) (ρ : Dev nD → PrngReg)

/-- The printed index maps, decided over the 64 points: the input's block moves with the output's; each table
    block's row index is the output's channel-block index and its column index is `0`; the output's block indices
    range over `16 × 4`. -/
theorem idx_facts : ∀ t : Fin cfg0.N,
    win0_0.index t (0 : Fin 4) = win0_5.index t (0 : Fin 4) ∧ win0_0.index t (1 : Fin 4) = win0_5.index t (1 : Fin 4)
    ∧ win0_0.index t (2 : Fin 4) = win0_5.index t (2 : Fin 4) ∧ win0_0.index t (3 : Fin 4) = win0_5.index t (3 : Fin 4)
    ∧ win0_1.index t (0 : Fin 2) = win0_5.index t (1 : Fin 4) ∧ win0_1.index t (1 : Fin 2) = 0
    ∧ win0_2.index t (0 : Fin 2) = win0_5.index t (1 : Fin 4) ∧ win0_2.index t (1 : Fin 2) = 0
    ∧ win0_3.index t (0 : Fin 2) = win0_5.index t (1 : Fin 4) ∧ win0_3.index t (1 : Fin 2) = 0
    ∧ win0_4.index t (0 : Fin 2) = win0_5.index t (1 : Fin 4) ∧ win0_4.index t (1 : Fin 2) = 0
    ∧ win0_5.index t (0 : Fin 4) ≤ 15 ∧ win0_5.index t (1 : Fin 4) ≤ 3
    ∧ win0_5.index t (2 : Fin 4) = 0 ∧ win0_5.index t (3 : Fin 4) = 0 :=
  (by decide +kernel : ∀ t : Fin grid0.N, _)

/-- Every block of the result is some point's. -/
theorem idx_onto : ∀ (q0 : Fin 16) (q1 : Fin 4), ∃ t : Fin cfg0.N, win0_5.index t = ![q0.val, q1.val, 0, 0] :=
  (by decide +kernel : ∀ (q0 : Fin 16) (q1 : Fin 4), ∃ t : Fin grid0.N, win0_5.index t = ![q0.val, q1.val, 0, 0])

/-- WHAT POINT `t` WRITES BACK is block `t` of `G` of the input and the two tables, when the tables' entries
    are real numbers. -/
theorem flushed_eq (hb : BodyAt) (c : Dev nD)
    (hW : ∀ i, ∃ r : ℝ, Wt m c i = ((r : ℝ) : EReal)) (hB : ∀ i, ∃ r : ℝ, Bt m c i = ((r : ℝ) : EReal))
    (t : Fin cfg0.N) :
    (dats m 0 c).flushed 5 t
      = ((cfg0.win 5).blk t).view.read (Elt Ideal) (G (V m c main_arg0) (Wt m c) (Bt m c)) := by
  rw [Value.flushed5]
  obtain ⟨e00, e01, e02, e03, e10, e11, e20, e21, e30, e31, e40, e41, b0, b1, z2, z3⟩ := idx_facts t
  funext y
  show out0_5 (iblk m c 0 t) (iblk m c 1 t) (iblk m c 2 t) (iblk m c 3 t) (iblk m c 4 t) y
    = G (V m c main_arg0) (Wt m c) (Bt m c) (((cfg0.win 5).blk t).view.emb y)
  have hy1 : (y 1).val < 16 := (y 1).isLt
  -- the block's entry is the array's entry
  have h0 : ((cfg0.win 0).blk t).view.emb y = ((cfg0.win 5).blk t).view.emb y := by
    funext a; apply Fin.ext
    match a with
    | ⟨0, _⟩ => show win0_0.index t (0 : Fin 4) * 1 + 1 * (y 0).val = win0_5.index t (0 : Fin 4) * 1 + 1 * (y 0).val; omega
    | ⟨1, _⟩ => show win0_0.index t (1 : Fin 4) * 16 + 1 * (y 1).val = win0_5.index t (1 : Fin 4) * 16 + 1 * (y 1).val; omega
    | ⟨2, _⟩ => show win0_0.index t (2 : Fin 4) * 256 + 1 * (y 2).val = win0_5.index t (2 : Fin 4) * 256 + 1 * (y 2).val; omega
    | ⟨3, _⟩ => show win0_0.index t (3 : Fin 4) * 256 + 1 * (y 3).val = win0_5.index t (3 : Fin 4) * 256 + 1 * (y 3).val; omega
  -- the channel of the entry
  have hr : ((((cfg0.win 5).blk t).view.emb y) 1).val = win0_5.index t (1 : Fin 4) * 16 + 1 * (y 1).val := rfl
  refine (bodyAt_idx hb _ _ _ _ _ y).trans ?_
  refine point_eq (V m c main_arg0) (Wt m c) (Bt m c) (((cfg0.win 5).blk t).view.emb y) (fun k => hW _) (fun k => hB _)
    _ _ _ _ _ ?_ ?_ ?_ ?_ ?_
  · show V m c main_arg0 (((cfg0.win 0).blk t).view.emb y) = _
    rw [h0]
  · show V m c main_v8 (((cfg0.win 1).blk t).view.emb (ix2 (y 1) 0)) = _
    refine Eq.trans (congrArg (V m c main_v8) ?_) (V_v8_apply m c (((cfg0.win 5).blk t).view.emb y 1))
    funext a; apply Fin.ext
    match a with
    | ⟨0, _⟩ => show win0_1.index t (0 : Fin 2) * 16 + 1 * (y 1).val = _; rw [hr]; omega
    | ⟨1, _⟩ => show win0_1.index t (1 : Fin 2) * 1 + 1 * 0 = 0; omega
  · show V m c main_v9 (((cfg0.win 2).blk t).view.emb (ix2 (y 1) 0)) = _
    refine Eq.trans (congrArg (V m c main_v9) ?_) (V_v9_apply m c (((cfg0.win 5).blk t).view.emb y 1))
    funext a; apply Fin.ext
    match a with
    | ⟨0, _⟩ => show win0_2.index t (0 : Fin 2) * 16 + 1 * (y 1).val = _; rw [hr]; omega
    | ⟨1, _⟩ => show win0_2.index t (1 : Fin 2) * 1 + 1 * 0 = 0; omega
  · intro k
    show V m c main_v10 (((cfg0.win 3).blk t).view.emb (ix2 (y 1) k)) = _
    refine Eq.trans (congrArg (V m c main_v10) ?_) (V_v10_apply m c (((cfg0.win 5).blk t).view.emb y 1) k)
    funext a; apply Fin.ext
    match a with
    | ⟨0, _⟩ => show win0_3.index t (0 : Fin 2) * 16 + 1 * (y 1).val = _; rw [hr]; omega
    | ⟨1, _⟩ => show win0_3.index t (1 : Fin 2) * 19 + 1 * k.val = k.val; omega
  · intro k
    show V m c main_v11 (((cfg0.win 4).blk t).view.emb (ix2 (y 1) k)) = _
    refine Eq.trans (congrArg (V m c main_v11) ?_) (V_v11_apply m c (((cfg0.win 5).blk t).view.emb y 1) k)
    funext a; apply Fin.ext
    match a with
    | ⟨0, _⟩ => show win0_4.index t (0 : Fin 2) * 16 + 1 * (y 1).val = _; rw [hr]; omega
    | ⟨1, _⟩ => show win0_4.index t (1 : Fin 2) * 19 + 1 * k.val = k.val; omega

/-- An index of the result is in point `t`'s block iff each coordinate is in the block's range on its axis. -/
theorem mem_blk (t : Fin cfg0.N) (i : S16x64x256x256.Idx) :
    i ∈ ((cfg0.win 5).blk t).view.set ↔ ∀ a : Fin 4, win0_5.index t a * S1x16x256x256.size a ≤ (i a).val
      ∧ (i a).val < win0_5.index t a * S1x16x256x256.size a + S1x16x256x256.size a := by
  show i ∈ ((View.whole main_v12).slice (win0_5.rect t)).set ↔ _
  rw [View.set_slice_whole, Rect.mem_set_unit]
  exact Iff.rfl

/-- The 64 blocks cover the result: entry `(b, ch, h, w)` is in the block of batch `b` and channel block `ch / 16`. -/
theorem cover (i : S16x64x256x256.Idx) :
    ∃ t : Fin cfg0.N, (cfg0.win 5).flush t = true ∧ i ∈ ((cfg0.win 5).blk t).view.set := by
  have hi0 : (i 0).val < 16 := (i 0).isLt
  have hi1 : (i 1).val < 64 := (i 1).isLt
  have hi2 : (i 2).val < 256 := (i 2).isLt
  have hi3 : (i 3).val < 256 := (i 3).isLt
  obtain ⟨t, ht⟩ := idx_onto ⟨(i 0).val, hi0⟩ ⟨(i 1).val / 16, by omega⟩
  have q0 : win0_5.index t (0 : Fin 4) = (i 0).val := congrFun ht 0
  have q1 : win0_5.index t (1 : Fin 4) = (i 1).val / 16 := congrFun ht 1
  have q2 : win0_5.index t (2 : Fin 4) = 0 := congrFun ht 2
  have q3 : win0_5.index t (3 : Fin 4) = 0 := congrFun ht 3
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 16 ≤ (i 1).val ∧ (i 1).val < win0_5.index t (1 : Fin 4) * 16 + 16; omega
  | ⟨2, _⟩ => show win0_5.index t (2 : Fin 4) * 256 ≤ (i 2).val ∧ (i 2).val < win0_5.index t (2 : Fin 4) * 256 + 256; omega
  | ⟨3, _⟩ => show win0_5.index t (3 : Fin 4) * 256 ≤ (i 3).val ∧ (i 3).val < win0_5.index t (3 : Fin 4) * 256 + 256; omega

/-- THE RESULT ARRAY after the run is `G` of the input and the two tables as launched. -/
theorem final (hb : BodyAt) (c : Dev nD)
    (hW : ∀ i, ∃ r : ℝ, Wt m c i = ((r : ℝ) : EReal)) (hB : ∀ i, ∃ r : ℝ, Bt m c i = ((r : ℝ) : EReal)) :
    (dats m 0 c).arrAt 5 cfg0.N = G (m ((c : Thread nD τ).loc main_arg0)) (Wt m c) (Bt m c) := by
  rw [← V_main_arg0 m c]
  exact (dats m 0 c).arrAt_eq_of_cover 5 (G (V m c main_arg0) (Wt m c) (Bt m c))
    (fun t _ => flushed_eq m hb c hW hB t) cover

/-- The kernel's run: the result array at `G`, the arguments unchanged. -/
theorem run (hb : BodyAt)
    (hW : ∀ c i, ∃ r : ℝ, Wt m c i = ((r : ℝ) : EReal)) (hB : ∀ c i, ∃ r : ℝ, Bt m c i = ((r : ℝ) : EReal)) :
    θ_run defs (onTc (τ := τ) (main (F := Ideal))) ⟨m, fun _ => 0, ρ⟩ fun r => ∀ c : Dev nD,
      r.2.mem ((c : Thread nD τ).loc main_v12) = G (m ((c : Thread nD τ).loc main_arg0)) (Wt m c) (Bt m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m hb c (hW c) (hB c)), (h c).2⟩)
    (Value.run_blocks m ρ)

end Cert.KernelIdeal.Blocks

end
-- ==== Proof.BodyPoint.lean ====
/-
  The kernel body's result at one index of the output block, with exact (extended-real) arithmetic.

  The body turns each entry `x` of its `[1, 16, 256, 256]` block into a bin word `k` (the quotient by the
  literal nearest `0.1`, floored, read as a signed word, plus ten, clamped into `[0, 19]`), and then adds up, for the
  entry's channel `p`, the slope `W₀ p + Σ_{m = 1}^{19} ΔW (p, m − 1) · [m ≤ k]` and the intercept
  `B₀ p + Σ_{m = 1}^{19} ΔB (p, m − 1) · [m ≤ k]`, nineteen terms each, from left to right; it stores
  `slope · x + intercept`. Every operation acts entry by entry, except that each table column, a `[16, 1]` block,
  is first spread over the `[16, 256, 256]` block: at `(p, h, w)` the spread column holds its entry at row `p`.

  So the proof reads each intermediate value at one index `(p, h, w)`: the layout operations by their index
  arithmetic (a shape cast keeps the row-major position, a broadcast reads `0` on a unit axis, a load through a
  rectangle reads offset + coordinate), the pointwise operations by definition. One lemma per intermediate value,
  then their composition.
-/
import proofs.«140695_j74904229642249_2_alg».proof.Proof.Gen.KernelIdeal.Frame
import proofs.«140695_j74904229642249_2_alg».proof.Proof.Spec
import Idealize.ShloMosaic.Lib.ValueIdx
import Idealize.ShloMosaic.Lib.Pipeline.Value
import Idealize.ShloMosaic.Lib.ValueLayout
import Idealize.ShloMosaic.PureOps.Ideal

noncomputable section

namespace Cert.KernelIdeal.BodyPoint

open Cert.KernelIdeal Cert.KernelIdeal.Gen Idealize.ShloMosaic Idealize.ShloMosaic.ValueIdx

/-! ## Reading the blocks -/

theorem hz4 : (![0, 0, 0, 0] : Fin 4 → Nat) = fun _ => 0 := funext fun a => by fin_cases a <;> rfl
theorem hz2 : (![0, 0] : Fin 2 → Nat) = fun _ => 0 := funext fun a => by fin_cases a <;> rfl

/-- Column `c` of a `[16, 19]` table, loaded as a `[16, 1]` block, holds at row `p` the table's entry `(p, c)`. -/
theorem ld_col (x : Vec Ideal S16x19 .f32) (c : Nat) (hc : c < 19)
    (inb : ∀ a, (![0, c] : Fin 2 → Nat) a + S16x1.size a ≤ S16x19.size a) (p : Fin 16) :
    View.ld x (Rect.unit (s := S16x19) ![0, c] S16x1.size inb) (ix2 p 0) = x (ix2 p ⟨c, hc⟩) := by
  show x _ = x _
  refine congrArg x (funext fun a => Fin.ext ?_)
  match a with
  | ⟨0, _⟩ => show 0 + 1 * p.val = p.val; omega
  | ⟨1, _⟩ => show c + 1 * 0 = c; omega

/-- A `[16, 1]` column spread over the `[16, 256, 256]` block holds at `(p, h, w)` the column's entry at row `p`. -/
theorem spread3 {α : Type} (v : S16x1x1.Idx → α) (hb : S16x1x1.Broadcasts S16x256x256) (p : Fin 16) (h w : Fin 256) :
    broadcastTo S16x256x256 v hb (ix3 p h w) = v (ix3 p 0 0) := by
  refine broadcastTo_apply v hb (ix3 p h w) (ix3 p 0 0) fun ax => ?_
  match ax with
  | ⟨0, _⟩ => rfl
  | ⟨1, _⟩ => rfl
  | ⟨2, _⟩ => rfl

theorem cast3 {α : Type} (v : S16x1.Idx → α) (h1 : S16x1.ShapeCasts S16) (h2 : S16.ShapeCasts S16x1x1)
    (h3 : S16x1x1.ShapeCasts S16x1x1) (p : Fin 16) :
    shapeCast S16x1x1 (shapeCast S16x1x1 (shapeCast S16 v h1) h2) h3 (ix3 p 0 0) = v (ix2 p 0) := by
  rw [shapeCast_self]
  refine (shapeCast_apply _ h2 (ix3 p 0 0) (ix1 p) ?_).trans ?_
  · rw [Shape.rowMajor_val_three, Shape.rowMajor_val_one]
    show p.val = (p.val * 1 + 0) * 1 + 0
    omega
  · refine shapeCast_apply v h1 (ix1 p) (ix2 p 0) ?_
    rw [Shape.rowMajor_val_two, Shape.rowMajor_val_one]
    show p.val * 1 + 0 = p.val
    omega

/-- A `[16, 1]` column, cast to `[16]`, to `[16, 1, 1]` and spread over the `[16, 256, 256]` block, holds at
    `(p, h, w)` the column's entry at row `p`. -/
theorem spread {α : Type} (v : S16x1.Idx → α) (h1 : S16x1.ShapeCasts S16) (h2 : S16.ShapeCasts S16x1x1)
    (h3 : S16x1x1.ShapeCasts S16x1x1) (hb : S16x1x1.Broadcasts S16x256x256) (p : Fin 16) (h w : Fin 256) :
    broadcastTo S16x256x256 (shapeCast S16x1x1 (shapeCast S16x1x1 (shapeCast S16 v h1) h2) h3) hb (ix3 p h w)
      = v (ix2 p 0) :=
  (spread3 _ hb p h w).trans (cast3 v h1 h2 h3 p)

/-! ## The bin word and the masks -/

/-- The block `[1, 16, 256, 256]` viewed `[16, 256, 256]`. -/
theorem pay2_apply (v0 : Vec Ideal S1x16x256x256 .f32) (p : Fin 16) (h w : Fin 256) :
    k0_pay2 v0 (ix3 p h w) = v0 (ix4 0 p h w) :=
  shapeCast_1abc_abc_apply v0 _ p h w

/-- The bin word of the block's entry. -/
theorem pay3_apply (v0 : Vec Ideal S1x16x256x256 .f32) (p : Fin 16) (h w : Fin 256) :
    k0_pay3 v0 (ix3 p h w) = Cert.Mtlu.bin (v0 (ix4 0 p h w)) := by
  show Cert.Mtlu.bin (k0_pay2 v0 (ix3 p h w)) = _
  rw [pay2_apply]

/-- The mask of `m ≤ v` as a real number. -/
theorem mask_apply (v : IVec S16x256x256 32) (m : BitVec 32) (hlt : 1 < 32) (j : S16x256x256.Idx) :
    (sitofp .f32 (extui 32 (cmpi .sge v (broadcast S16x256x256 m)) hlt) : FVec Ideal S16x256x256 .f32) j
      = Cert.Mtlu.step (v j) m := rfl

theorem pay4_apply (v0 : Vec Ideal S1x16x256x256 .f32) (j : S16x256x256.Idx) :
    k0_pay4 v0 j = Cert.Mtlu.step (k0_pay3 v0 j) 1#32 := rfl
theorem pay7_apply (v : IVec S16x256x256 32) (c : BitVec 32) (j : S16x256x256.Idx) :
    k0_pay7 (F := Ideal) v c j = Cert.Mtlu.step (v j) c := rfl
theorem pay8_apply (v : IVec S16x256x256 32) (j : S16x256x256.Idx) :
    k0_pay8 (F := Ideal) v j = Cert.Mtlu.step (v j) 3#32 := rfl
theorem pay10_apply (v : IVec S16x256x256 32) (j : S16x256x256.Idx) :
    k0_pay10 (F := Ideal) v j = Cert.Mtlu.step (v j) 4#32 := rfl
theorem pay12_apply (v : IVec S16x256x256 32) (j : S16x256x256.Idx) :
    k0_pay12 (F := Ideal) v j = Cert.Mtlu.step (v j) 5#32 := rfl
theorem pay13_apply (v : IVec S16x256x256 32) (j : S16x256x256.Idx) :
    k0_pay13 (F := Ideal) v j = Cert.Mtlu.step (v j) 6#32 := rfl
theorem pay16_apply (v : IVec S16x256x256 32) (j : S16x256x256.Idx) :
    k0_pay16 (F := Ideal) v j = Cert.Mtlu.step (v j) 7#32 := rfl
theorem pay17_apply (v : IVec S16x256x256 32) (j : S16x256x256.Idx) :
    k0_pay17 (F := Ideal) v j = Cert.Mtlu.step (v j) 8#32 := rfl
theorem pay19_apply (v : IVec S16x256x256 32) (j : S16x256x256.Idx) :
    k0_pay19 (F := Ideal) v j = Cert.Mtlu.step (v j) 9#32 := rfl
theorem pay22_apply (v : IVec S16x256x256 32) (j : S16x256x256.Idx) :
    k0_pay22 (F := Ideal) v j = Cert.Mtlu.step (v j) 10#32 := rfl
theorem pay23_apply (v : IVec S16x256x256 32) (j : S16x256x256.Idx) :
    k0_pay23 (F := Ideal) v j = Cert.Mtlu.step (v j) 11#32 := rfl
theorem pay26_apply (v : IVec S16x256x256 32) (j : S16x256x256.Idx) :
    k0_pay26 (F := Ideal) v j = Cert.Mtlu.step (v j) 12#32 := rfl
theorem pay28_apply (v : IVec S16x256x256 32) (j : S16x256x256.Idx) :
    k0_pay28 (F := Ideal) v j = Cert.Mtlu.step (v j) 13#32 := rfl
theorem pay29_apply (v : IVec S16x256x256 32) (j : S16x256x256.Idx) :
    k0_pay29 (F := Ideal) v j = Cert.Mtlu.step (v j) 14#32 := rfl
theorem pay32_apply (j : S16x256x256.Idx) : k0_pay32 j = 15#32 := rfl
theorem pay33_apply (v v' : IVec S16x256x256 32) (j : S16x256x256.Idx) :
    k0_pay33 (F := Ideal) v v' j = Cert.Mtlu.step (v j) (v' j) := rfl
theorem pay34_apply (v : IVec S16x256x256 32) (j : S16x256x256.Idx) :
    k0_pay34 (F := Ideal) v j = Cert.Mtlu.step (v j) 16#32 := rfl
theorem pay36_apply (v : IVec S16x256x256 32) (j : S16x256x256.Idx) :
    k0_pay36 (F := Ideal) v j = Cert.Mtlu.step (v j) 17#32 := rfl

/-! ## The running sums, one payload at a time

Each payload adds two or three terms `column · mask` to a running sum; read at `(p, h, w)` the column is the
table's entry at row `p` and the mask is the indicator of the bin word at `(p, h, w)`. -/

theorem pay5_apply (v0 : Vec Ideal S1x16x256x256 .f32) (v12 v26 : Vec Ideal S16x1 .f32) (p : Fin 16) (h w : Fin 256) :
    k0_pay5 v0 v12 v26 (ix3 p h w)
      = v12 (ix2 p 0) + v26 (ix2 p 0) * Cert.Mtlu.step (k0_pay3 v0 (ix3 p h w)) 1#32 := by
  unfold k0_pay5
  simp only [addf_apply, mulf_apply, spread, pay4_apply]

theorem pay6_apply (v0 : Vec Ideal S1x16x256x256 .f32) (v17 v33 : Vec Ideal S16x1 .f32) (p : Fin 16) (h w : Fin 256) :
    k0_pay6 v0 v17 v33 (ix3 p h w)
      = v17 (ix2 p 0) + v33 (ix2 p 0) * Cert.Mtlu.step (k0_pay3 v0 (ix3 p h w)) 1#32 := by
  unfold k0_pay6
  simp only [addf_apply, mulf_apply, spread, pay4_apply]

theorem pay9_apply (v11 : IVec S16x256x256 32) (v39 : FVec Ideal S16x256x256 .f32) (c : BitVec 32)
    (v51 v69 : Vec Ideal S16x1 .f32) (p : Fin 16) (h w : Fin 256) :
    k0_pay9 v11 v39 c v51 v69 (ix3 p h w)
      = v39 (ix3 p h w) + v51 (ix2 p 0) * Cert.Mtlu.step (v11 (ix3 p h w)) c + v69 (ix2 p 0) * Cert.Mtlu.step (v11 (ix3 p h w)) 3#32 := by
  unfold k0_pay9
  simp only [addf_apply, mulf_apply, spread, pay7_apply, pay8_apply]

theorem pay11_apply (v11 : IVec S16x256x256 32) (v32 : FVec Ideal S16x256x256 .f32) (c : BitVec 32)
    (v44 v62 v80 : Vec Ideal S16x1 .f32) (p : Fin 16) (h w : Fin 256) :
    k0_pay11 v11 v32 c v44 v62 v80 (ix3 p h w)
      = v32 (ix3 p h w) + v44 (ix2 p 0) * Cert.Mtlu.step (v11 (ix3 p h w)) c + v62 (ix2 p 0) * Cert.Mtlu.step (v11 (ix3 p h w)) 3#32 + v80 (ix2 p 0) * Cert.Mtlu.step (v11 (ix3 p h w)) 4#32 := by
  unfold k0_pay11
  simp only [addf_apply, mulf_apply, spread, pay7_apply, pay8_apply, pay10_apply]

theorem pay14_apply (v11 : IVec S16x256x256 32) (v86 : FVec Ideal S16x256x256 .f32)
    (v98 v116 : Vec Ideal S16x1 .f32) (p : Fin 16) (h w : Fin 256) :
    k0_pay14 v11 v86 v98 v116 (ix3 p h w)
      = v86 (ix3 p h w) + v98 (ix2 p 0) * Cert.Mtlu.step (v11 (ix3 p h w)) 5#32 + v116 (ix2 p 0) * Cert.Mtlu.step (v11 (ix3 p h w)) 6#32 := by
  unfold k0_pay14
  simp only [addf_apply, mulf_apply, spread, pay12_apply, pay13_apply]

theorem pay15_apply (v11 : IVec S16x256x256 32) (v75 v79 : FVec Ideal S16x256x256 .f32)
    (v87 v105 v123 : Vec Ideal S16x1 .f32) (p : Fin 16) (h w : Fin 256) :
    k0_pay15 v11 v75 v79 v87 v105 v123 (ix3 p h w)
      = v75 (ix3 p h w) + v87 (ix2 p 0) * v79 (ix3 p h w) + v105 (ix2 p 0) * Cert.Mtlu.step (v11 (ix3 p h w)) 5#32 + v123 (ix2 p 0) * Cert.Mtlu.step (v11 (ix3 p h w)) 6#32 := by
  unfold k0_pay15
  simp only [addf_apply, mulf_apply, spread, pay12_apply, pay13_apply]

theorem pay18_apply (v11 : IVec S16x256x256 32) (v129 v133 : FVec Ideal S16x256x256 .f32)
    (v141 v159 : Vec Ideal S16x1 .f32) (p : Fin 16) (h w : Fin 256) :
    k0_pay18 v11 v129 v133 v141 v159 (ix3 p h w)
      = v129 (ix3 p h w) + v141 (ix2 p 0) * v133 (ix3 p h w) + v159 (ix2 p 0) * Cert.Mtlu.step (v11 (ix3 p h w)) 8#32 := by
  unfold k0_pay18
  simp only [addf_apply, mulf_apply, spread, pay17_apply]

theorem pay20_apply (v11 : IVec S16x256x256 32) (v122 v133 : FVec Ideal S16x256x256 .f32)
    (v134 v152 v170 : Vec Ideal S16x1 .f32) (p : Fin 16) (h w : Fin 256) :
    k0_pay20 v11 v122 v133 v134 v152 v170 (ix3 p h w)
      = v122 (ix3 p h w) + v134 (ix2 p 0) * v133 (ix3 p h w) + v152 (ix2 p 0) * Cert.Mtlu.step (v11 (ix3 p h w)) 8#32 + v170 (ix2 p 0) * Cert.Mtlu.step (v11 (ix3 p h w)) 9#32 := by
  unfold k0_pay20
  simp only [addf_apply, mulf_apply, spread, pay17_apply, pay19_apply]

/-- A column already cast to `[16, 1, 1]`. -/
theorem pay21_apply (v177 : Vec Ideal S16x1 .f32) (p : Fin 16) :
    k0_pay21 v177 (ix3 p 0 0) = v177 (ix2 p 0) := by
  unfold k0_pay21
  exact cast3 v177 _ _ _ p

theorem pay27_apply (v224 : Vec Ideal S16x1 .f32) (p : Fin 16) :
    k0_pay27 v224 (ix3 p 0 0) = v224 (ix2 p 0) := by
  unfold k0_pay27
  exact cast3 v224 _ _ _ p

theorem pay24_apply (v11 : IVec S16x256x256 32) (v176 : FVec Ideal S16x256x256 .f32)
    (v188 v206 : Vec Ideal S16x1 .f32) (p : Fin 16) (h w : Fin 256) :
    k0_pay24 v11 v176 v188 v206 (ix3 p h w)
      = v176 (ix3 p h w) + v188 (ix2 p 0) * Cert.Mtlu.step (v11 (ix3 p h w)) 10#32 + v206 (ix2 p 0) * Cert.Mtlu.step (v11 (ix3 p h w)) 11#32 := by
  unfold k0_pay24
  simp only [addf_apply, mulf_apply, spread, pay22_apply, pay23_apply]

theorem pay25_apply (v11 : IVec S16x256x256 32) (v165 v169 : FVec Ideal S16x256x256 .f32)
    (v180 : FVec Ideal S16x1x1 .f32) (v195 v213 : Vec Ideal S16x1 .f32) (p : Fin 16) (h w : Fin 256) :
    k0_pay25 v11 v165 v169 v180 v195 v213 (ix3 p h w)
      = v165 (ix3 p h w) + v180 (ix3 p 0 0) * v169 (ix3 p h w) + v195 (ix2 p 0) * Cert.Mtlu.step (v11 (ix3 p h w)) 10#32 + v213 (ix2 p 0) * Cert.Mtlu.step (v11 (ix3 p h w)) 11#32 := by
  unfold k0_pay25
  simp only [addf_apply, mulf_apply, spread3, cast3, pay22_apply, pay23_apply]

theorem pay30_apply (v11 : IVec S16x256x256 32) (v212 v223 : FVec Ideal S16x256x256 .f32)
    (v227 : FVec Ideal S16x1x1 .f32) (v242 v260 : Vec Ideal S16x1 .f32) (p : Fin 16) (h w : Fin 256) :
    k0_pay30 v11 v212 v223 v227 v242 v260 (ix3 p h w)
      = v212 (ix3 p h w) + v227 (ix3 p 0 0) * v223 (ix3 p h w) + v242 (ix2 p 0) * Cert.Mtlu.step (v11 (ix3 p h w)) 13#32 + v260 (ix2 p 0) * Cert.Mtlu.step (v11 (ix3 p h w)) 14#32 := by
  unfold k0_pay30
  simp only [addf_apply, mulf_apply, spread3, cast3, pay28_apply, pay29_apply]

theorem pay31_apply (v11 : IVec S16x256x256 32) (v219 v223 : FVec Ideal S16x256x256 .f32)
    (v231 v249 v267 : Vec Ideal S16x1 .f32) (p : Fin 16) (h w : Fin 256) :
    k0_pay31 v11 v219 v223 v231 v249 v267 (ix3 p h w)
      = v219 (ix3 p h w) + v231 (ix2 p 0) * v223 (ix3 p h w) + v249 (ix2 p 0) * Cert.Mtlu.step (v11 (ix3 p h w)) 13#32 + v267 (ix2 p 0) * Cert.Mtlu.step (v11 (ix3 p h w)) 14#32 := by
  unfold k0_pay31
  simp only [addf_apply, mulf_apply, spread, pay28_apply, pay29_apply]

theorem pay35_apply (v11 : IVec S16x256x256 32) (v273 : FVec Ideal S16x256x256 .f32) (v274 : IVec S16x256x256 32)
    (v285 v303 : Vec Ideal S16x1 .f32) (p : Fin 16) (h w : Fin 256) :
    k0_pay35 v11 v273 v274 v285 v303 (ix3 p h w)
      = v273 (ix3 p h w) + v285 (ix2 p 0) * Cert.Mtlu.step (v11 (ix3 p h w)) (v274 (ix3 p h w)) + v303 (ix2 p 0) * Cert.Mtlu.step (v11 (ix3 p h w)) 16#32 := by
  unfold k0_pay35
  simp only [addf_apply, mulf_apply, spread, pay33_apply, pay34_apply]

theorem pay37_apply (v11 : IVec S16x256x256 32) (v266 : FVec Ideal S16x256x256 .f32) (v274 : IVec S16x256x256 32)
    (v278 v296 v314 : Vec Ideal S16x1 .f32) (p : Fin 16) (h w : Fin 256) :
    k0_pay37 v11 v266 v274 v278 v296 v314 (ix3 p h w)
      = v266 (ix3 p h w) + v278 (ix2 p 0) * Cert.Mtlu.step (v11 (ix3 p h w)) (v274 (ix3 p h w)) + v296 (ix2 p 0) * Cert.Mtlu.step (v11 (ix3 p h w)) 16#32 + v314 (ix2 p 0) * Cert.Mtlu.step (v11 (ix3 p h w)) 17#32 := by
  unfold k0_pay37
  simp only [addf_apply, mulf_apply, spread, pay33_apply, pay34_apply, pay36_apply]

/-- The last payload: the two closing terms of each sum, then slope · entry + intercept. -/
theorem pay38_apply (v1 : FVec Ideal S16x256x256 .f32) (v11 : IVec S16x256x256 32) (v309 v313 v320 : FVec Ideal S16x256x256 .f32)
    (v321 v332 v339 v350 v357 : Vec Ideal S16x1 .f32) (p : Fin 16) (h w : Fin 256) :
    k0_pay38 v1 v11 v309 v313 v320 v321 v332 v339 v350 v357 (ix3 p h w)
      = (v320 (ix3 p h w) + v332 (ix2 p 0) * Cert.Mtlu.step (v11 (ix3 p h w)) 18#32 + v350 (ix2 p 0) * Cert.Mtlu.step (v11 (ix3 p h w)) 19#32) * v1 (ix3 p h w)
        + (v309 (ix3 p h w) + v321 (ix2 p 0) * v313 (ix3 p h w) + v339 (ix2 p 0) * Cert.Mtlu.step (v11 (ix3 p h w)) 18#32 + v357 (ix2 p 0) * Cert.Mtlu.step (v11 (ix3 p h w)) 19#32) := by
  unfold k0_pay38
  simp only [addf_apply, mulf_apply, spread, mask_apply]

/-- The result `[16, 256, 256]` stored as the block `[1, 16, 256, 256]`. -/
theorem pay1_apply (v365 : FVec Ideal S16x256x256 .f32) (p : Fin 16) (h w : Fin 256) :
    k0_pay1 v365 (ix4 0 p h w) = v365 (ix3 p h w) :=
  shapeCast_abc_1abc_apply v365 _ 0 p h w

/-! ## The body's result at one index -/

/-- What the body leaves in the output block at `(0, p, h, w)`: with `k` the bin word of the entry
    `x = x0 (0, p, h, w)`, the slope `W₀ p + Σ_m ΔW (p, m − 1) · [m ≤ k]` times `x`, plus the intercept
    `B₀ p + Σ_m ΔB (p, m − 1) · [m ≤ k]`, both sums added from left to right. -/
theorem out_apply (x0 : Vec Ideal S1x16x256x256 .f32) (x1 x2 : Vec Ideal S16x1 .f32) (x3 x4 : Vec Ideal S16x19 .f32)
    (p : Fin 16) (h w : Fin 256) :
    out0_5 (F := Ideal) x0 x1 x2 x3 x4 (ix4 0 p h w)
      = Cert.Mtlu.acc19 (x1 (ix2 p 0)) (fun k => x3 (ix2 p k)) (Cert.Mtlu.bin (x0 (ix4 0 p h w))) * x0 (ix4 0 p h w)
        + Cert.Mtlu.acc19 (x2 (ix2 p 0)) (fun k => x4 (ix2 p k)) (Cert.Mtlu.bin (x0 (ix4 0 p h w))) := by
  unfold out0_5
  rw [View.canon_unit_zero hz4]
  simp only [View.ld_unit_zero (S := S1x16x256x256) hz4, View.ld_unit_zero (S := S16x1) hz2]
  rw [pay1_apply, pay38_apply]
  simp only [pay37_apply, pay30_apply, pay24_apply, pay20_apply, pay14_apply, pay11_apply, pay5_apply,
    pay35_apply, pay31_apply, pay25_apply, pay18_apply, pay15_apply, pay9_apply, pay6_apply,
    pay10_apply, pay16_apply, pay19_apply, pay21_apply, pay26_apply, pay27_apply, pay32_apply, pay36_apply,
    pay2_apply, pay3_apply]
  rw [ld_col x3 0 (by decide) _ p, ld_col x3 1 (by decide) _ p, ld_col x3 2 (by decide) _ p, ld_col x3 3 (by decide) _ p, ld_col x3 4 (by decide) _ p, ld_col x3 5 (by decide) _ p, ld_col x3 6 (by decide) _ p, ld_col x3 7 (by decide) _ p, ld_col x3 8 (by decide) _ p, ld_col x3 9 (by decide) _ p, ld_col x3 10 (by decide) _ p, ld_col x3 11 (by decide) _ p, ld_col x3 12 (by decide) _ p, ld_col x3 13 (by decide) _ p, ld_col x3 14 (by decide) _ p, ld_col x3 15 (by decide) _ p, ld_col x3 16 (by decide) _ p, ld_col x3 17 (by decide) _ p, ld_col x3 18 (by decide) _ p]
  rw [ld_col x4 0 (by decide) _ p, ld_col x4 1 (by decide) _ p, ld_col x4 2 (by decide) _ p, ld_col x4 3 (by decide) _ p, ld_col x4 4 (by decide) _ p, ld_col x4 5 (by decide) _ p, ld_col x4 6 (by decide) _ p, ld_col x4 7 (by decide) _ p, ld_col x4 8 (by decide) _ p, ld_col x4 9 (by decide) _ p, ld_col x4 10 (by decide) _ p, ld_col x4 11 (by decide) _ p, ld_col x4 12 (by decide) _ p, ld_col x4 13 (by decide) _ p, ld_col x4 14 (by decide) _ p, ld_col x4 15 (by decide) _ p, ld_col x4 16 (by decide) _ p, ld_col x4 17 (by decide) _ p, ld_col x4 18 (by decide) _ p]
  unfold Cert.Mtlu.acc19
  rfl

end Cert.KernelIdeal.BodyPoint

end
-- ==== Proof.LibExtReal.lean ====
/- Extended reals that are real numbers are closed under the field operations (sum, difference,
   product, negation, maximum, finite sums, division by a nonzero real, reciprocal square root of a
   positive real), so an identity of real arithmetic transfers to the extended reals once every letter
   in it is known to be a real number. Also: the real numbers a few float constants denote. -/
import Idealize.ShloMosaic.PureOps.Ideal

noncomputable section

namespace Cert.LibExtReal

open Idealize.ShloMosaic

/-- An extended real is a real number: it is neither of the two infinities. -/
def IsReal (a : EReal) : Prop := ∃ r : ℝ, a = (r : EReal)

/-- A real number, read as an extended real, is a real number. -/
theorem IsReal.coe (r : ℝ) : IsReal (r : EReal) := ⟨r, rfl⟩

/-- Zero is a real number. -/
theorem IsReal.zero : IsReal (0 : EReal) := ⟨0, rfl⟩

/-- The sum of two real numbers is a real number. -/
theorem IsReal.add {a b : EReal} (ha : IsReal a) (hb : IsReal b) : IsReal (a + b) := by
  obtain ⟨x, rfl⟩ := ha
  obtain ⟨y, rfl⟩ := hb
  exact ⟨x + y, (EReal.coe_add x y).symm⟩

/-- The difference of two real numbers is a real number. -/
theorem IsReal.sub {a b : EReal} (ha : IsReal a) (hb : IsReal b) : IsReal (a - b) := by
  obtain ⟨x, rfl⟩ := ha
  obtain ⟨y, rfl⟩ := hb
  exact ⟨x - y, (EReal.coe_sub x y).symm⟩

/-- The product of two real numbers is a real number. -/
theorem IsReal.mul {a b : EReal} (ha : IsReal a) (hb : IsReal b) : IsReal (a * b) := by
  obtain ⟨x, rfl⟩ := ha
  obtain ⟨y, rfl⟩ := hb
  exact ⟨x * y, (EReal.coe_mul x y).symm⟩

/-- The negative of a real number is a real number. -/
theorem IsReal.neg {a : EReal} (ha : IsReal a) : IsReal (-a) := by
  obtain ⟨x, rfl⟩ := ha
  exact ⟨-x, (EReal.coe_neg x).symm⟩

/-- The larger of two real numbers is a real number. -/
theorem IsReal.max {a b : EReal} (ha : IsReal a) (hb : IsReal b) : IsReal (max a b) := by
  rcases max_choice a b with h | h
  · rw [h]; exact ha
  · rw [h]; exact hb

/-- A finite sum of real numbers, taken in the extended reals, is their sum as real numbers. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih =>
    rw [Finset.sum_insert ha, Finset.sum_insert ha, ih, EReal.coe_add]

/-- A finite sum of real numbers is a real number. -/
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact IsReal.add (h a (Finset.mem_insert_self a s))
      (ih (fun i hi => h i (Finset.mem_insert_of_mem hi)))

/-- Dividing a real number by a nonzero real number is division of real numbers. -/
theorem div_coe_coe (x y : ℝ) (hy : y ≠ 0) :
    Ideal.div (x : EReal) (y : EReal) = ((x / y : ℝ) : EReal) := by
  rw [Ideal.div_coe hy, ← EReal.coe_mul]
  congr 1
  rw [mul_one_div]

/-- A real number divided by a nonzero real number is a real number. -/
theorem IsReal.div_coe {a : EReal} (ha : IsReal a) {y : ℝ} (hy : y ≠ 0) :
    IsReal (Ideal.div a (y : EReal)) := by
  obtain ⟨x, rfl⟩ := ha
  exact ⟨x / y, div_coe_coe x y hy⟩

/-- The reciprocal square root of a positive real number is the reciprocal of its square root. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- The reciprocal square root of a positive real number is a real number. -/
theorem IsReal.rsqrt_of_pos {a : EReal} (h : ∃ r : ℝ, 0 < r ∧ a = (r : EReal)) :
    IsReal (Ideal.rsqrt a) := by
  obtain ⟨r, hr, rfl⟩ := h
  exact ⟨(Real.sqrt r)⁻¹, rsqrt_coe_pos hr⟩

/-- The pattern of `+0.0` denotes zero. -/
theorem ofBits_zero : Ideal.ofBits .f32 0x00000000#32 = (0 : EReal) := by
  simp [Ideal.ofBits, Ideal.ieee]

/-- The pattern of `1.0` denotes the real number one. -/
theorem ofBits_one : Ideal.ofBits .f32 0x3F800000#32 = ((1 : ℝ) : EReal) := by
  simp [Ideal.ofBits, Ideal.ieee, -EReal.coe_mul]; norm_num

/-- The pattern of `262144.0` (two to the eighteenth) denotes the real number 262144. -/
theorem ofBits_n : Ideal.ofBits .f32 0x48800000#32 = ((262144 : ℝ) : EReal) := by
  simp [Ideal.ofBits, Ideal.ieee, -EReal.coe_mul]; norm_num

/-- The pattern of the single-precision number nearest to one hundred-thousandth denotes a positive
    real number (its exact value is not needed). -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity

/-- The larger of a nonnegative real number and zero is that number. -/
theorem max_eq_left_of_nonneg_coe {v : ℝ} (hv : 0 ≤ v) :
    max ((v : ℝ) : EReal) (0 : EReal) = ((v : ℝ) : EReal) := by
  apply max_eq_left
  exact_mod_cast hv

/-- The regrouping of an affine map: with every letter a real number,
    x·(I·Γ) + (((B + Zt) − Zb) − (M·I)·Γ) = (((x − M)·I)·Γ + B) + (Zt − Zb). -/
theorem affine_regroup {x M I Γ B Zt Zb : EReal} (hx : IsReal x) (hM : IsReal M) (hI : IsReal I)
    (hΓ : IsReal Γ) (hB : IsReal B) (hZt : IsReal Zt) (hZb : IsReal Zb) :
    x * (I * Γ) + (((B + Zt) - Zb) - (M * I) * Γ) = (((x - M) * I) * Γ + B) + (Zt - Zb) := by
  obtain ⟨x, rfl⟩ := hx
  obtain ⟨M, rfl⟩ := hM
  obtain ⟨I, rfl⟩ := hI
  obtain ⟨Γ, rfl⟩ := hΓ
  obtain ⟨B, rfl⟩ := hB
  obtain ⟨Zt, rfl⟩ := hZt
  obtain ⟨Zb, rfl⟩ := hZb
  simp only [← EReal.coe_mul, ← EReal.coe_add, ← EReal.coe_sub]
  congr 1
  ring

end Cert.LibExtReal

end
-- ==== Proof.Finite.lean ====
/-
  Finiteness: under the precondition the two tables are tables of real numbers.

  The precondition says that every entry of the two anchor arrays `y`, `y'` has absolute value below `+∞`, so
  each is a real number. The slope table `(y − y') / 0.1` is then real (the divisor, the single-precision number
  nearest `0.1`, is a nonzero real), and so is the intercept table `y − (y − y') · offset`, an integer offset being
  a real number.
-/
import proofs.«140695_j74904229642249_2_alg».proof.Defs
import proofs.«140695_j74904229642249_2_alg».proof.Proof.HostTabs
import proofs.«140695_j74904229642249_2_alg».proof.Proof.LibExtReal
import Idealize.ShloMosaic.Lib.ReduceAll

noncomputable section

namespace Cert.KernelIdeal.Finite

open Cert.KernelIdeal Cert.KernelIdeal.HostTabs Cert.LibExtReal
open Idealize.ShloMosaic Idealize.ShloMosaic.TcCoe Idealize.SL.Sem Idealize.ShloMosaic.ValueIdx

instance : Subsingleton Cert.Pre_finite_inputs.S_.Idx := ⟨fun _ _ => funext fun d => d.elim0⟩

/-- An extended real whose absolute value is below `+∞` is a real number. -/
theorem isReal_of_abs_lt_top (x : EReal)
    (h : Ideal.cmp .olt (max x (-x)) (Ideal.ofBits .f32 0x7F800000#32) = 1#1) : IsReal x := by
  have hinf : Ideal.ofBits .f32 0x7F800000#32 = (⊤ : EReal) := by simp [Ideal.ofBits, Ideal.ieee]
  rw [hinf] at h
  induction x using EReal.rec with
  | bot => simp [Ideal.cmp] at h
  | coe r => exact ⟨r, rfl⟩
  | top => simp [Ideal.cmp] at h

/-- The single-precision number nearest `0.1` is a nonzero real number. -/
theorem tenth : ∃ e : ℝ, e ≠ 0 ∧ Ideal.ofBits .f32 0x3DCCCCCD#32 = ((e : ℝ) : EReal) := by
  refine ⟨_, ?_, by simp [Ideal.ofBits, Ideal.ieee, -EReal.coe_mul]; rfl⟩
  positivity

variable [Cert.Pre_finite_inputs.Facts]

/-- Under the precondition every entry of the two anchor arrays is a real number. -/
theorem anchors_real (m : (ℓ : Loc nD τ sig) → Buf (Elt Ideal) ℓ) (h : Cert.Pre_KernelIdeal m) (c : Dev nD) :
    (∀ i, IsReal (m ((c : Thread nD τ).loc main_arg1) i)) ∧ (∀ i, IsReal (m ((c : Thread nD τ).loc main_arg2) i)) := by
  have h0 := congrFun (h c) ix0
  dsimp only [Cert.Pre_finite_inputs.fn] at h0
  obtain ⟨h01, h2⟩ := IntOp.andi_eq_one.1 h0
  obtain ⟨_, h1⟩ := IntOp.andi_eq_one.1 h01
  refine ⟨fun i => ?_, fun i => ?_⟩
  · exact isReal_of_abs_lt_top _ (Host.reduce_andi_all _ _ _ _ _ h1 i)
  · exact isReal_of_abs_lt_top _ (Host.reduce_andi_all _ _ _ _ _ h2 i)

/-- The slope table's entries are real numbers when the anchors' are. -/
theorem Wt_real (m : (ℓ : Loc nD τ sig) → Buf (Elt Ideal) ℓ) (c : Dev nD)
    (h1 : ∀ i, IsReal (m ((c : Thread nD τ).loc main_arg1) i)) (h2 : ∀ i, IsReal (m ((c : Thread nD τ).loc main_arg2) i))
    (i : S64x20.Idx) : IsReal (Wt m c i) := by
  obtain ⟨e, he, hc⟩ := tenth
  rw [Wt_apply, hc]
  exact IsReal.div_coe (IsReal.sub (h1 i) (h2 i)) he

/-- The intercept table's entries are real numbers when the anchors' are. -/
theorem Bt_real (m : (ℓ : Loc nD τ sig) → Buf (Elt Ideal) ℓ) (c : Dev nD)
    (h1 : ∀ i, IsReal (m ((c : Thread nD τ).loc main_arg1) i)) (h2 : ∀ i, IsReal (m ((c : Thread nD τ).loc main_arg2) i))
    (i : S64x20.Idx) : IsReal (Bt m c i) := by
  rw [Bt_apply]
  exact IsReal.sub (h1 i) (IsReal.mul (IsReal.sub (h1 i) (h2 i)) (IsReal.coe _))

end Cert.KernelIdeal.Finite

end
-- ==== Proof.RefStages.lean ====
/-
  The looked-up program, one operation at a time: each operation's result as a function of the arguments it depends
  on, and that result read at one index.

  From the anchors `y`, their predecessors `y'` and the integer offsets `n` the program forms a table of slopes
  `(y − y') / 0.1` and a table of intercepts `y − (y − y') · n`. For each entry `x` of the input it forms the bin
  `⌊x / 0.1⌋ + 10` clamped into `[0, 19]`, pairs it with the entry's channel number, looks both tables up at the pair
  and returns slope · `x` + intercept. Every definition below is the operation itself applied to the earlier
  definitions, so the last one is the program's composed term.
-/
import proofs.«140695_j74904229642249_2_alg».proof.Proof.Gen.ReferenceIdeal
import Idealize.ShloMosaic.Lib.Pipeline.Value

noncomputable section

namespace Cert.ReferenceIdeal.Stages

open Cert.ReferenceIdeal Cert.ReferenceIdeal.Gen Idealize.ShloMosaic Idealize.ShloMosaic.StableHlo

variable {F : FTy → Type} [FloatOps F]

/-! ## The two tables: slopes and intercepts -/

-- `y − y'`, entry by entry: the rise over each bin
def val_main_v0 (x1 x2 : (⟨S64x20, .f32⟩ : BufTy).Contents (Elt F)) : (⟨S64x20, .f32⟩ : BufTy).Contents (Elt F) :=
  subf (x1) (x2)
theorem val_main_v0_apply (x1 x2 : (⟨S64x20, .f32⟩ : BufTy).Contents (Elt F)) (i : S64x20.Idx) :
    val_main_v0 (F := F) x1 x2 i = FloatOps.subf (x1 i) (x2 i) := rfl

-- the bin width: the single-precision number nearest `0.1`
def val_main_cst : (⟨S_, .f32⟩ : BufTy).Contents (Elt F) :=
  constant S_ .f32 0x3DCCCCCD#32
theorem val_main_cst_apply (i : S_.Idx) :
    val_main_cst (F := F) i = FloatOps.ofBits .f32 0x3DCCCCCD#32 := rfl

-- … at every entry of a table
def val_main_v1 : (⟨S64x20, .f32⟩ : BufTy).Contents (Elt F) :=
  broadcastInDim S64x20 ![] bcast_S_S64x20 (val_main_cst (F := F))
abbrev idx_main_v1 (i : S64x20.Idx) : S_.Idx := fun a => a.elim0
theorem val_main_v1_apply (i : S64x20.Idx) :
    val_main_v1 (F := F) i = val_main_cst (F := F) (idx_main_v1 i) := by
  unfold val_main_v1
  generalize val_main_cst (F := F) = y
  exact broadcastInDim_apply _ bcast_S_S64x20 y i (idx_main_v1 i) (fun a => a.elim0)

-- THE SLOPES `(y − y') / 0.1`
def val_main_v2 (x1 x2 : (⟨S64x20, .f32⟩ : BufTy).Contents (Elt F)) : (⟨S64x20, .f32⟩ : BufTy).Contents (Elt F) :=
  Host.divf (val_main_v0 (F := F) x1 x2) (val_main_v1 (F := F))
theorem val_main_v2_apply (x1 x2 : (⟨S64x20, .f32⟩ : BufTy).Contents (Elt F)) (i : S64x20.Idx) :
    val_main_v2 (F := F) x1 x2 i = FloatOps.hostDivf (val_main_v0 (F := F) x1 x2 i) (val_main_v1 (F := F) i) := rfl

-- the twenty integer offsets `n`, as reals
def val_main_v3 (x3 : (⟨S20, .i32⟩ : BufTy).Contents (Elt F)) : (⟨S20, .f32⟩ : BufTy).Contents (Elt F) :=
  sitofp .f32 (x3)
theorem val_main_v3_apply (x3 : (⟨S20, .i32⟩ : BufTy).Contents (Elt F)) (i : S20.Idx) :
    val_main_v3 (F := F) x3 i = FloatOps.sitofp .f32 (x3 i) := rfl

-- … laid along the columns of a one-row table
def val_main_v4 (x3 : (⟨S20, .i32⟩ : BufTy).Contents (Elt F)) : (⟨S1x20, .f32⟩ : BufTy).Contents (Elt F) :=
  broadcastInDim S1x20 ![1] bcast_S20_S1x20_1 (val_main_v3 (F := F) x3)
abbrev idx_main_v4 (i : S1x20.Idx) : S20.Idx := fun a => match a with
  | ⟨0, _⟩ => ⟨(i 1).val, (i 1).isLt⟩
theorem val_main_v4_apply (x3 : (⟨S20, .i32⟩ : BufTy).Contents (Elt F)) (i : S1x20.Idx) :
    val_main_v4 (F := F) x3 i = val_main_v3 (F := F) x3 (idx_main_v4 i) := by
  unfold val_main_v4
  generalize val_main_v3 (F := F) x3 = y
  exact broadcastInDim_apply _ bcast_S20_S1x20_1 y i (idx_main_v4 i) (fun a => match a with
    | ⟨0, _⟩ => by show (i 1).val = if (20 : Nat) = 1 then 0 else (i 1).val; rw [if_neg (by decide)])

-- … and repeated in each of the 64 rows
def val_main_v5 (x3 : (⟨S20, .i32⟩ : BufTy).Contents (Elt F)) : (⟨S64x20, .f32⟩ : BufTy).Contents (Elt F) :=
  broadcastInDim S64x20 ![0, 1] bcast_S1x20_S64x20_0_1 (val_main_v4 (F := F) x3)
abbrev idx_main_v5 (i : S64x20.Idx) : S1x20.Idx := fun a => match a with
  | ⟨0, _⟩ => ⟨0, Nat.one_pos⟩
  | ⟨1, _⟩ => ⟨(i 1).val, (i 1).isLt⟩
theorem val_main_v5_apply (x3 : (⟨S20, .i32⟩ : BufTy).Contents (Elt F)) (i : S64x20.Idx) :
    val_main_v5 (F := F) x3 i = val_main_v4 (F := F) x3 (idx_main_v5 i) := by
  unfold val_main_v5
  generalize val_main_v4 (F := F) x3 = y
  exact broadcastInDim_apply _ bcast_S1x20_S64x20_0_1 y i (idx_main_v5 i) (fun a => match a with
    | ⟨0, _⟩ => by show 0 = if (1 : Nat) = 1 then 0 else (i 0).val; rw [if_pos rfl]
    | ⟨1, _⟩ => by show (i 1).val = if (20 : Nat) = 1 then 0 else (i 1).val; rw [if_neg (by decide)])

-- `(y − y') · n`
def val_main_v6 (x1 x2 : (⟨S64x20, .f32⟩ : BufTy).Contents (Elt F)) (x3 : (⟨S20, .i32⟩ : BufTy).Contents (Elt F)) : (⟨S64x20, .f32⟩ : BufTy).Contents (Elt F) :=
  mulf (val_main_v0 (F := F) x1 x2) (val_main_v5 (F := F) x3)
theorem val_main_v6_apply (x1 x2 : (⟨S64x20, .f32⟩ : BufTy).Contents (Elt F)) (x3 : (⟨S20, .i32⟩ : BufTy).Contents (Elt F)) (i : S64x20.Idx) :
    val_main_v6 (F := F) x1 x2 x3 i = FloatOps.mulf (val_main_v0 (F := F) x1 x2 i) (val_main_v5 (F := F) x3 i) := rfl

-- THE INTERCEPTS `y − (y − y') · n`
def val_main_v7 (x1 x2 : (⟨S64x20, .f32⟩ : BufTy).Contents (Elt F)) (x3 : (⟨S20, .i32⟩ : BufTy).Contents (Elt F)) : (⟨S64x20, .f32⟩ : BufTy).Contents (Elt F) :=
  subf (x1) (val_main_v6 (F := F) x1 x2 x3)
theorem val_main_v7_apply (x1 x2 : (⟨S64x20, .f32⟩ : BufTy).Contents (Elt F)) (x3 : (⟨S20, .i32⟩ : BufTy).Contents (Elt F)) (i : S64x20.Idx) :
    val_main_v7 (F := F) x1 x2 x3 i = FloatOps.subf (x1 i) (val_main_v6 (F := F) x1 x2 x3 i) := rfl

/-! ## The bin of each entry of the input -/

-- the bin width again
def val_main_cst_0 : (⟨S_, .f32⟩ : BufTy).Contents (Elt F) :=
  constant S_ .f32 0x3DCCCCCD#32
theorem val_main_cst_0_apply (i : S_.Idx) :
    val_main_cst_0 (F := F) i = FloatOps.ofBits .f32 0x3DCCCCCD#32 := rfl

-- … at every entry of the input's shape
def val_main_v8 : (⟨S16x64x256x256, .f32⟩ : BufTy).Contents (Elt F) :=
  broadcastInDim S16x64x256x256 ![] bcast_S_S16x64x256x256 (val_main_cst_0 (F := F))
abbrev idx_main_v8 (i : S16x64x256x256.Idx) : S_.Idx := fun a => a.elim0
theorem val_main_v8_apply (i : S16x64x256x256.Idx) :
    val_main_v8 (F := F) i = val_main_cst_0 (F := F) (idx_main_v8 i) := by
  unfold val_main_v8
  generalize val_main_cst_0 (F := F) = y
  exact broadcastInDim_apply _ bcast_S_S16x64x256x256 y i (idx_main_v8 i) (fun a => a.elim0)

-- `x / 0.1`
def val_main_v9 (x0 : (⟨S16x64x256x256, .f32⟩ : BufTy).Contents (Elt F)) : (⟨S16x64x256x256, .f32⟩ : BufTy).Contents (Elt F) :=
  Host.divf (x0) (val_main_v8 (F := F))
theorem val_main_v9_apply (x0 : (⟨S16x64x256x256, .f32⟩ : BufTy).Contents (Elt F)) (i : S16x64x256x256.Idx) :
    val_main_v9 (F := F) x0 i = FloatOps.hostDivf (x0 i) (val_main_v8 (F := F) i) := rfl

-- `⌊x / 0.1⌋`
def val_main_v10 (x0 : (⟨S16x64x256x256, .f32⟩ : BufTy).Contents (Elt F)) : (⟨S16x64x256x256, .f32⟩ : BufTy).Contents (Elt F) :=
  Host.floor (val_main_v9 (F := F) x0)
theorem val_main_v10_apply (x0 : (⟨S16x64x256x256, .f32⟩ : BufTy).Contents (Elt F)) (i : S16x64x256x256.Idx) :
    val_main_v10 (F := F) x0 i = FloatOps.hostUnary .floor (val_main_v9 (F := F) x0 i) := rfl

-- … as a signed 32-bit word
def val_main_v11 (x0 : (⟨S16x64x256x256, .f32⟩ : BufTy).Contents (Elt F)) : (⟨S16x64x256x256, .i32⟩ : BufTy).Contents (Elt F) :=
  fptosi 32 (val_main_v10 (F := F) x0)
theorem val_main_v11_apply (x0 : (⟨S16x64x256x256, .f32⟩ : BufTy).Contents (Elt F)) (i : S16x64x256x256.Idx) :
    val_main_v11 (F := F) x0 i = FloatOps.fptosi 32 (val_main_v10 (F := F) x0 i) := rfl

-- ten
def val_main_c : (⟨S_, .i32⟩ : BufTy).Contents (Elt F) :=
  constantI S_ 32 10#32
theorem val_main_c_apply (i : S_.Idx) :
    val_main_c (F := F) i = 10#32 := rfl

-- … at every entry
def val_main_v12 : (⟨S16x64x256x256, .i32⟩ : BufTy).Contents (Elt F) :=
  broadcastInDim S16x64x256x256 ![] bcast_S_S16x64x256x256 (val_main_c (F := F))
abbrev idx_main_v12 (i : S16x64x256x256.Idx) : S_.Idx := fun a => a.elim0
theorem val_main_v12_apply (i : S16x64x256x256.Idx) :
    val_main_v12 (F := F) i = val_main_c (F := F) (idx_main_v12 i) := by
  unfold val_main_v12
  generalize val_main_c (F := F) = y
  exact broadcastInDim_apply _ bcast_S_S16x64x256x256 y i (idx_main_v12 i) (fun a => a.elim0)

-- `⌊x / 0.1⌋ + 10`
def val_main_v13 (x0 : (⟨S16x64x256x256, .f32⟩ : BufTy).Contents (Elt F)) : (⟨S16x64x256x256, .i32⟩ : BufTy).Contents (Elt F) :=
  addi (val_main_v11 (F := F) x0) (val_main_v12 (F := F))
theorem val_main_v13_apply (x0 : (⟨S16x64x256x256, .f32⟩ : BufTy).Contents (Elt F)) (i : S16x64x256x256.Idx) :
    val_main_v13 (F := F) x0 i = IntOp.addi (val_main_v11 (F := F) x0 i) (val_main_v12 (F := F) i) := rfl

-- the bounds `0` and `19` of the clamp
def val_main_c_1 : (⟨S_, .i32⟩ : BufTy).Contents (Elt F) :=
  constantI S_ 32 0#32
theorem val_main_c_1_apply (i : S_.Idx) :
    val_main_c_1 (F := F) i = 0#32 := rfl

def val_main_c_2 : (⟨S_, .i32⟩ : BufTy).Contents (Elt F) :=
  constantI S_ 32 19#32
theorem val_main_c_2_apply (i : S_.Idx) :
    val_main_c_2 (F := F) i = 19#32 := rfl

-- the lower bound, at every entry
def val_main_call0_v0 : (⟨S_, .i32⟩ : BufTy).Contents (Elt F) :=
  id (val_main_c_1 (F := F))
theorem val_main_call0_v0_apply (i : S_.Idx) :
    val_main_call0_v0 (F := F) i = (val_main_c_1 (F := F) i) := rfl

def val_main_call0_v1 : (⟨S16x64x256x256, .i32⟩ : BufTy).Contents (Elt F) :=
  broadcastInDim S16x64x256x256 ![] bcast_S_S16x64x256x256 (val_main_call0_v0 (F := F))
abbrev idx_main_call0_v1 (i : S16x64x256x256.Idx) : S_.Idx := fun a => a.elim0
theorem val_main_call0_v1_apply (i : S16x64x256x256.Idx) :
    val_main_call0_v1 (F := F) i = val_main_call0_v0 (F := F) (idx_main_call0_v1 i) := by
  unfold val_main_call0_v1
  generalize val_main_call0_v0 (F := F) = y
  exact broadcastInDim_apply _ bcast_S_S16x64x256x256 y i (idx_main_call0_v1 i) (fun a => a.elim0)

-- the larger of `0` and `⌊x / 0.1⌋ + 10`
def val_main_call0_v2 (x0 : (⟨S16x64x256x256, .f32⟩ : BufTy).Contents (Elt F)) : (⟨S16x64x256x256, .i32⟩ : BufTy).Contents (Elt F) :=
  maxsi (val_main_call0_v1 (F := F)) (val_main_v13 (F := F) x0)
theorem val_main_call0_v2_apply (x0 : (⟨S16x64x256x256, .f32⟩ : BufTy).Contents (Elt F)) (i : S16x64x256x256.Idx) :
    val_main_call0_v2 (F := F) x0 i = IntOp.maxsi (val_main_call0_v1 (F := F) i) (val_main_v13 (F := F) x0 i) := rfl

-- the upper bound, at every entry
def val_main_call0_v3 : (⟨S_, .i32⟩ : BufTy).Contents (Elt F) :=
  id (val_main_c_2 (F := F))
theorem val_main_call0_v3_apply (i : S_.Idx) :
    val_main_call0_v3 (F := F) i = (val_main_c_2 (F := F) i) := rfl

def val_main_call0_v4 : (⟨S16x64x256x256, .i32⟩ : BufTy).Contents (Elt F) :=
  broadcastInDim S16x64x256x256 ![] bcast_S_S16x64x256x256 (val_main_call0_v3 (F := F))
abbrev idx_main_call0_v4 (i : S16x64x256x256.Idx) : S_.Idx := fun a => a.elim0
theorem val_main_call0_v4_apply (i : S16x64x256x256.Idx) :
    val_main_call0_v4 (F := F) i = val_main_call0_v3 (F := F) (idx_main_call0_v4 i) := by
  unfold val_main_call0_v4
  generalize val_main_call0_v3 (F := F) = y
  exact broadcastInDim_apply _ bcast_S_S16x64x256x256 y i (idx_main_call0_v4 i) (fun a => a.elim0)

-- THE BIN: the smaller of `19` and that
def val_main_v14 (x0 : (⟨S16x64x256x256, .f32⟩ : BufTy).Contents (Elt F)) : (⟨S16x64x256x256, .i32⟩ : BufTy).Contents (Elt F) :=
  minsi (val_main_call0_v4 (F := F)) (val_main_call0_v2 (F := F) x0)
theorem val_main_v14_apply (x0 : (⟨S16x64x256x256, .f32⟩ : BufTy).Contents (Elt F)) (i : S16x64x256x256.Idx) :
    val_main_v14 (F := F) x0 i = IntOp.minsi (val_main_call0_v4 (F := F) i) (val_main_call0_v2 (F := F) x0 i) := rfl

/-! ## The (row, column) pair for the slopes' lookup -/

-- the channel numbers `0, …, 63`
def val_main_v15 : (⟨S64, .i32⟩ : BufTy).Contents (Elt F) :=
  iotaInDim S64 32 0
theorem val_main_v15_apply (i : S64.Idx) :
    val_main_v15 (F := F) i = BitVec.ofNat 32 (i 0).val := rfl

-- … along the second of four axes, the other three of extent one
def val_main_v16 : (⟨S1x64x1x1, .i32⟩ : BufTy).Contents (Elt F) :=
  shapeCast _ (val_main_v15 (F := F)) shapeCasts_S64_S1x64x1x1
abbrev idx_main_v16 (i : S1x64x1x1.Idx) : S64.Idx := fun a => match a with
  | ⟨0, _⟩ => ⟨(((i 0).val * 64 + (i 1).val) * 1 + (i 2).val) * 1 + (i 3).val, by have h0 : (i 0).val < 1 := (i 0).isLt; have h1 : (i 1).val < 64 := (i 1).isLt; have h2 : (i 2).val < 1 := (i 2).isLt; have h3 : (i 3).val < 1 := (i 3).isLt; show (((i 0).val * 64 + (i 1).val) * 1 + (i 2).val) * 1 + (i 3).val < 64; omega⟩
theorem val_main_v16_apply (i : S1x64x1x1.Idx) :
    val_main_v16 (F := F) i = val_main_v15 (F := F) (idx_main_v16 i) := by
  unfold val_main_v16
  generalize val_main_v15 (F := F) = y
  exact shapeCast_apply y shapeCasts_S64_S1x64x1x1 i (idx_main_v16 i)
    (by rewrite [Shape.rowMajor_val_one, Shape.rowMajor_val_four]; have h0 : (i 0).val < 1 := (i 0).isLt; have h1 : (i 1).val < 64 := (i 1).isLt; have h2 : (i 2).val < 1 := (i 2).isLt; have h3 : (i 3).val < 1 := (i 3).isLt; show (((i 0).val * 64 + (i 1).val) * 1 + (i 2).val) * 1 + (i 3).val = (((i 0).val * 64 + (i 1).val) * 1 + (i 2).val) * 1 + (i 3).val; omega)

-- is a channel number negative? (then it would count from the end: plus 64)
def val_main_c_3 : (⟨S_, .i32⟩ : BufTy).Contents (Elt F) :=
  constantI S_ 32 0#32
theorem val_main_c_3_apply (i : S_.Idx) :
    val_main_c_3 (F := F) i = 0#32 := rfl

def val_main_v17 : (⟨S1x64x1x1, .i32⟩ : BufTy).Contents (Elt F) :=
  broadcastInDim S1x64x1x1 ![] bcast_S_S1x64x1x1 (val_main_c_3 (F := F))
abbrev idx_main_v17 (i : S1x64x1x1.Idx) : S_.Idx := fun a => a.elim0
theorem val_main_v17_apply (i : S1x64x1x1.Idx) :
    val_main_v17 (F := F) i = val_main_c_3 (F := F) (idx_main_v17 i) := by
  unfold val_main_v17
  generalize val_main_c_3 (F := F) = y
  exact broadcastInDim_apply _ bcast_S_S1x64x1x1 y i (idx_main_v17 i) (fun a => a.elim0)

def val_main_v18 : (⟨S1x64x1x1, .i1⟩ : BufTy).Contents (Elt F) :=
  cmpi .slt (val_main_v16 (F := F)) (val_main_v17 (F := F))
theorem val_main_v18_apply (i : S1x64x1x1.Idx) :
    val_main_v18 (F := F) i = IntOp.cmpi .slt (val_main_v16 (F := F) i) (val_main_v17 (F := F) i) := rfl

def val_main_c_4 : (⟨S_, .i32⟩ : BufTy).Contents (Elt F) :=
  constantI S_ 32 64#32
theorem val_main_c_4_apply (i : S_.Idx) :
    val_main_c_4 (F := F) i = 64#32 := rfl

def val_main_v19 : (⟨S1x64x1x1, .i32⟩ : BufTy).Contents (Elt F) :=
  broadcastInDim S1x64x1x1 ![] bcast_S_S1x64x1x1 (val_main_c_4 (F := F))
abbrev idx_main_v19 (i : S1x64x1x1.Idx) : S_.Idx := fun a => a.elim0
theorem val_main_v19_apply (i : S1x64x1x1.Idx) :
    val_main_v19 (F := F) i = val_main_c_4 (F := F) (idx_main_v19 i) := by
  unfold val_main_v19
  generalize val_main_c_4 (F := F) = y
  exact broadcastInDim_apply _ bcast_S_S1x64x1x1 y i (idx_main_v19 i) (fun a => a.elim0)

def val_main_v20 : (⟨S1x64x1x1, .i32⟩ : BufTy).Contents (Elt F) :=
  addi (val_main_v16 (F := F)) (val_main_v19 (F := F))
theorem val_main_v20_apply (i : S1x64x1x1.Idx) :
    val_main_v20 (F := F) i = IntOp.addi (val_main_v16 (F := F) i) (val_main_v19 (F := F) i) := rfl

-- the row: the channel number, or it plus 64 where negative
def val_main_v21 : (⟨S1x64x1x1, .i32⟩ : BufTy).Contents (Elt F) :=
  select (val_main_v18 (F := F)) (val_main_v20 (F := F)) (val_main_v16 (F := F))
theorem val_main_v21_apply (i : S1x64x1x1.Idx) :
    val_main_v21 (F := F) i = Scalar.select (val_main_v18 (F := F) i) (val_main_v20 (F := F) i) (val_main_v16 (F := F) i) := rfl

-- is a bin negative? (then it would count from the end: plus 20)
def val_main_c_5 : (⟨S_, .i32⟩ : BufTy).Contents (Elt F) :=
  constantI S_ 32 0#32
theorem val_main_c_5_apply (i : S_.Idx) :
    val_main_c_5 (F := F) i = 0#32 := rfl

def val_main_v22 : (⟨S16x64x256x256, .i32⟩ : BufTy).Contents (Elt F) :=
  broadcastInDim S16x64x256x256 ![] bcast_S_S16x64x256x256 (val_main_c_5 (F := F))
abbrev idx_main_v22 (i : S16x64x256x256.Idx) : S_.Idx := fun a => a.elim0
theorem val_main_v22_apply (i : S16x64x256x256.Idx) :
    val_main_v22 (F := F) i = val_main_c_5 (F := F) (idx_main_v22 i) := by
  unfold val_main_v22
  generalize val_main_c_5 (F := F) = y
  exact broadcastInDim_apply _ bcast_S_S16x64x256x256 y i (idx_main_v22 i) (fun a => a.elim0)

def val_main_v23 (x0 : (⟨S16x64x256x256, .f32⟩ : BufTy).Contents (Elt F)) : (⟨S16x64x256x256, .i1⟩ : BufTy).Contents (Elt F) :=
  cmpi .slt (val_main_v14 (F := F) x0) (val_main_v22 (F := F))
theorem val_main_v23_apply (x0 : (⟨S16x64x256x256, .f32⟩ : BufTy).Contents (Elt F)) (i : S16x64x256x256.Idx) :
    val_main_v23 (F := F) x0 i = IntOp.cmpi .slt (val_main_v14 (F := F) x0 i) (val_main_v22 (F := F) i) := rfl

def val_main_c_6 : (⟨S_, .i32⟩ : BufTy).Contents (Elt F) :=
  constantI S_ 32 20#32
theorem val_main_c_6_apply (i : S_.Idx) :
    val_main_c_6 (F := F) i = 20#32 := rfl

def val_main_v24 : (⟨S16x64x256x256, .i32⟩ : BufTy).Contents (Elt F) :=
  broadcastInDim S16x64x256x256 ![] bcast_S_S16x64x256x256 (val_main_c_6 (F := F))
abbrev idx_main_v24 (i : S16x64x256x256.Idx) : S_.Idx := fun a => a.elim0
theorem val_main_v24_apply (i : S16x64x256x256.Idx) :
    val_main_v24 (F := F) i = val_main_c_6 (F := F) (idx_main_v24 i) := by
  unfold val_main_v24
  generalize val_main_c_6 (F := F) = y
  exact broadcastInDim_apply _ bcast_S_S16x64x256x256 y i (idx_main_v24 i) (fun a => a.elim0)

def val_main_v25 (x0 : (⟨S16x64x256x256, .f32⟩ : BufTy).Contents (Elt F)) : (⟨S16x64x256x256, .i32⟩ : BufTy).Contents (Elt F) :=
  addi (val_main_v14 (F := F) x0) (val_main_v24 (F := F))
theorem val_main_v25_apply (x0 : (⟨S16x64x256x256, .f32⟩ : BufTy).Contents (Elt F)) (i : S16x64x256x256.Idx) :
    val_main_v25 (F := F) x0 i = IntOp.addi (val_main_v14 (F := F) x0 i) (val_main_v24 (F := F) i) := rfl

-- the column: the bin, or it plus 20 where negative
def val_main_v26 (x0 : (⟨S16x64x256x256, .f32⟩ : BufTy).Contents (Elt F)) : (⟨S16x64x256x256, .i32⟩ : BufTy).Contents (Elt F) :=
  select (val_main_v23 (F := F) x0) (val_main_v25 (F := F) x0) (val_main_v14 (F := F) x0)
theorem val_main_v26_apply (x0 : (⟨S16x64x256x256, .f32⟩ : BufTy).Contents (Elt F)) (i : S16x64x256x256.Idx) :
    val_main_v26 (F := F) x0 i = Scalar.select (val_main_v23 (F := F) x0 i) (val_main_v25 (F := F) x0 i) (val_main_v14 (F := F) x0 i) := rfl

-- the rows spread over the input's shape …
def val_main_v27 : (⟨S16x64x256x256, .i32⟩ : BufTy).Contents (Elt F) :=
  broadcastInDim S16x64x256x256 ![0, 1, 2, 3] bcast_S1x64x1x1_S16x64x256x256_0_1_2_3 (val_main_v21 (F := F))
abbrev idx_main_v27 (i : S16x64x256x256.Idx) : S1x64x1x1.Idx := fun a => match a with
  | ⟨0, _⟩ => ⟨0, Nat.one_pos⟩
  | ⟨1, _⟩ => ⟨(i 1).val, (i 1).isLt⟩
  | ⟨2, _⟩ => ⟨0, Nat.one_pos⟩
  | ⟨3, _⟩ => ⟨0, Nat.one_pos⟩
theorem val_main_v27_apply (i : S16x64x256x256.Idx) :
    val_main_v27 (F := F) i = val_main_v21 (F := F) (idx_main_v27 i) := by
  unfold val_main_v27
  generalize val_main_v21 (F := F) = y
  exact broadcastInDim_apply _ bcast_S1x64x1x1_S16x64x256x256_0_1_2_3 y i (idx_main_v27 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)]
    | ⟨2, _⟩ => by show 0 = if (1 : Nat) = 1 then 0 else (i 2).val; rw [if_pos rfl]
    | ⟨3, _⟩ => by show 0 = if (1 : Nat) = 1 then 0 else (i 3).val; rw [if_pos rfl])

-- … and given a last axis of extent one
def val_main_v28 : (⟨S16x64x256x256x1, .i32⟩ : BufTy).Contents (Elt F) :=
  broadcastInDim S16x64x256x256x1 ![0, 1, 2, 3] bcast_S16x64x256x256_S16x64x256x256x1_0_1_2_3 (val_main_v27 (F := F))
abbrev idx_main_v28 (i : S16x64x256x256x1.Idx) : S16x64x256x256.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v28_apply (i : S16x64x256x256x1.Idx) :
    val_main_v28 (F := F) i = val_main_v27 (F := F) (idx_main_v28 i) := by
  unfold val_main_v28
  generalize val_main_v27 (F := F) = y
  exact broadcastInDim_apply _ bcast_S16x64x256x256_S16x64x256x256x1_0_1_2_3 y i (idx_main_v28 i) (fun a => match a with
    | ⟨0, _⟩ => by show (i 0).val = if (16 : Nat) = 1 then 0 else (i 0).val; rw [if_neg (by decide)]
    | ⟨1, _⟩ => by show (i 1).val = if (64 : Nat) = 1 then 0 else (i 1).val; rw [if_neg (by decide)]
    | ⟨2, _⟩ => by show (i 2).val = if (256 : Nat) = 1 then 0 else (i 2).val; rw [if_neg (by decide)]
    | ⟨3, _⟩ => by show (i 3).val = if (256 : Nat) = 1 then 0 else (i 3).val; rw [if_neg (by decide)])

-- the columns given a last axis of extent one
def val_main_v29 (x0 : (⟨S16x64x256x256, .f32⟩ : BufTy).Contents (Elt F)) : (⟨S16x64x256x256x1, .i32⟩ : BufTy).Contents (Elt F) :=
  broadcastInDim S16x64x256x256x1 ![0, 1, 2, 3] bcast_S16x64x256x256_S16x64x256x256x1_0_1_2_3 (val_main_v26 (F := F) x0)
abbrev idx_main_v29 (i : S16x64x256x256x1.Idx) : S16x64x256x256.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v29_apply (x0 : (⟨S16x64x256x256, .f32⟩ : BufTy).Contents (Elt F)) (i : S16x64x256x256x1.Idx) :
    val_main_v29 (F := F) x0 i = val_main_v26 (F := F) x0 (idx_main_v29 i) := by
  unfold val_main_v29
  generalize val_main_v26 (F := F) x0 = y
  exact broadcastInDim_apply _ bcast_S16x64x256x256_S16x64x256x256x1_0_1_2_3 y i (idx_main_v29 i) (fun a => match a with
    | ⟨0, _⟩ => by show (i 0).val = if (16 : Nat) = 1 then 0 else (i 0).val; rw [if_neg (by decide)]
    | ⟨1, _⟩ => by show (i 1).val = if (64 : Nat) = 1 then 0 else (i 1).val; rw [if_neg (by decide)]
    | ⟨2, _⟩ => by show (i 2).val = if (256 : Nat) = 1 then 0 else (i 2).val; rw [if_neg (by decide)]
    | ⟨3, _⟩ => by show (i 3).val = if (256 : Nat) = 1 then 0 else (i 3).val; rw [if_neg (by decide)])

-- THE PAIRS: row and column side by side on the last axis
def val_main_v30 (x0 : (⟨S16x64x256x256, .f32⟩ : BufTy).Contents (Elt F)) : (⟨S16x64x256x256x2, .i32⟩ : BufTy).Contents (Elt F) :=
  concatenate S16x64x256x256x2 4 [⟨S16x64x256x256x1, (val_main_v28 (F := F))⟩, ⟨S16x64x256x256x1, (val_main_v29 (F := F) x0)⟩] concatenates_S16x64x256x256x1_S16x64x256x256x1_S16x64x256x256x2_d4

-- THE SLOPE LOOKED UP at each pair
def val_main_v31 (x0 : (⟨S16x64x256x256, .f32⟩ : BufTy).Contents (Elt F)) (x1 x2 : (⟨S64x20, .f32⟩ : BufTy).Contents (Elt F)) : (⟨S16x64x256x256, .f32⟩ : BufTy).Contents (Elt F) :=
  Host.gather gather_S64x20_S16x64x256x256x2_S16x64x256x256_n_01_n_n_01_4_11 (val_main_v2 (F := F) x1 x2) (val_main_v30 (F := F) x0)

/-! ## The same pair again, for the intercepts' lookup -/

def val_main_c_7 : (⟨S_, .i32⟩ : BufTy).Contents (Elt F) :=
  constantI S_ 32 0#32
theorem val_main_c_7_apply (i : S_.Idx) :
    val_main_c_7 (F := F) i = 0#32 := rfl

def val_main_v32 : (⟨S1x64x1x1, .i32⟩ : BufTy).Contents (Elt F) :=
  broadcastInDim S1x64x1x1 ![] bcast_S_S1x64x1x1 (val_main_c_7 (F := F))
abbrev idx_main_v32 (i : S1x64x1x1.Idx) : S_.Idx := fun a => a.elim0
theorem val_main_v32_apply (i : S1x64x1x1.Idx) :
    val_main_v32 (F := F) i = val_main_c_7 (F := F) (idx_main_v32 i) := by
  unfold val_main_v32
  generalize val_main_c_7 (F := F) = y
  exact broadcastInDim_apply _ bcast_S_S1x64x1x1 y i (idx_main_v32 i) (fun a => a.elim0)

def val_main_v33 : (⟨S1x64x1x1, .i1⟩ : BufTy).Contents (Elt F) :=
  cmpi .slt (val_main_v16 (F := F)) (val_main_v32 (F := F))
theorem val_main_v33_apply (i : S1x64x1x1.Idx) :
    val_main_v33 (F := F) i = IntOp.cmpi .slt (val_main_v16 (F := F) i) (val_main_v32 (F := F) i) := rfl

def val_main_c_8 : (⟨S_, .i32⟩ : BufTy).Contents (Elt F) :=
  constantI S_ 32 64#32
theorem val_main_c_8_apply (i : S_.Idx) :
    val_main_c_8 (F := F) i = 64#32 := rfl

def val_main_v34 : (⟨S1x64x1x1, .i32⟩ : BufTy).Contents (Elt F) :=
  broadcastInDim S1x64x1x1 ![] bcast_S_S1x64x1x1 (val_main_c_8 (F := F))
abbrev idx_main_v34 (i : S1x64x1x1.Idx) : S_.Idx := fun a => a.elim0
theorem val_main_v34_apply (i : S1x64x1x1.Idx) :
    val_main_v34 (F := F) i = val_main_c_8 (F := F) (idx_main_v34 i) := by
  unfold val_main_v34
  generalize val_main_c_8 (F := F) = y
  exact broadcastInDim_apply _ bcast_S_S1x64x1x1 y i (idx_main_v34 i) (fun a => a.elim0)

def val_main_v35 : (⟨S1x64x1x1, .i32⟩ : BufTy).Contents (Elt F) :=
  addi (val_main_v16 (F := F)) (val_main_v34 (F := F))
theorem val_main_v35_apply (i : S1x64x1x1.Idx) :
    val_main_v35 (F := F) i = IntOp.addi (val_main_v16 (F := F) i) (val_main_v34 (F := F) i) := rfl

-- the row
def val_main_v36 : (⟨S1x64x1x1, .i32⟩ : BufTy).Contents (Elt F) :=
  select (val_main_v33 (F := F)) (val_main_v35 (F := F)) (val_main_v16 (F := F))
theorem val_main_v36_apply (i : S1x64x1x1.Idx) :
    val_main_v36 (F := F) i = Scalar.select (val_main_v33 (F := F) i) (val_main_v35 (F := F) i) (val_main_v16 (F := F) i) := rfl

def val_main_c_9 : (⟨S_, .i32⟩ : BufTy).Contents (Elt F) :=
  constantI S_ 32 0#32
theorem val_main_c_9_apply (i : S_.Idx) :
    val_main_c_9 (F := F) i = 0#32 := rfl

def val_main_v37 : (⟨S16x64x256x256, .i32⟩ : BufTy).Contents (Elt F) :=
  broadcastInDim S16x64x256x256 ![] bcast_S_S16x64x256x256 (val_main_c_9 (F := F))
abbrev idx_main_v37 (i : S16x64x256x256.Idx) : S_.Idx := fun a => a.elim0
theorem val_main_v37_apply (i : S16x64x256x256.Idx) :
    val_main_v37 (F := F) i = val_main_c_9 (F := F) (idx_main_v37 i) := by
  unfold val_main_v37
  generalize val_main_c_9 (F := F) = y
  exact broadcastInDim_apply _ bcast_S_S16x64x256x256 y i (idx_main_v37 i) (fun a => a.elim0)

def val_main_v38 (x0 : (⟨S16x64x256x256, .f32⟩ : BufTy).Contents (Elt F)) : (⟨S16x64x256x256, .i1⟩ : BufTy).Contents (Elt F) :=
  cmpi .slt (val_main_v14 (F := F) x0) (val_main_v37 (F := F))
theorem val_main_v38_apply (x0 : (⟨S16x64x256x256, .f32⟩ : BufTy).Contents (Elt F)) (i : S16x64x256x256.Idx) :
    val_main_v38 (F := F) x0 i = IntOp.cmpi .slt (val_main_v14 (F := F) x0 i) (val_main_v37 (F := F) i) := rfl

def val_main_c_10 : (⟨S_, .i32⟩ : BufTy).Contents (Elt F) :=
  constantI S_ 32 20#32
theorem val_main_c_10_apply (i : S_.Idx) :
    val_main_c_10 (F := F) i = 20#32 := rfl

def val_main_v39 : (⟨S16x64x256x256, .i32⟩ : BufTy).Contents (Elt F) :=
  broadcastInDim S16x64x256x256 ![] bcast_S_S16x64x256x256 (val_main_c_10 (F := F))
abbrev idx_main_v39 (i : S16x64x256x256.Idx) : S_.Idx := fun a => a.elim0
theorem val_main_v39_apply (i : S16x64x256x256.Idx) :
    val_main_v39 (F := F) i = val_main_c_10 (F := F) (idx_main_v39 i) := by
  unfold val_main_v39
  generalize val_main_c_10 (F := F) = y
  exact broadcastInDim_apply _ bcast_S_S16x64x256x256 y i (idx_main_v39 i) (fun a => a.elim0)

def val_main_v40 (x0 : (⟨S16x64x256x256, .f32⟩ : BufTy).Contents (Elt F)) : (⟨S16x64x256x256, .i32⟩ : BufTy).Contents (Elt F) :=
  addi (val_main_v14 (F := F) x0) (val_main_v39 (F := F))
theorem val_main_v40_apply (x0 : (⟨S16x64x256x256, .f32⟩ : BufTy).Contents (Elt F)) (i : S16x64x256x256.Idx) :
    val_main_v40 (F := F) x0 i = IntOp.addi (val_main_v14 (F := F) x0 i) (val_main_v39 (F := F) i) := rfl

-- the column
def val_main_v41 (x0 : (⟨S16x64x256x256, .f32⟩ : BufTy).Contents (Elt F)) : (⟨S16x64x256x256, .i32⟩ : BufTy).Contents (Elt F) :=
  select (val_main_v38 (F := F) x0) (val_main_v40 (F := F) x0) (val_main_v14 (F := F) x0)
theorem val_main_v41_apply (x0 : (⟨S16x64x256x256, .f32⟩ : BufTy).Contents (Elt F)) (i : S16x64x256x256.Idx) :
    val_main_v41 (F := F) x0 i = Scalar.select (val_main_v38 (F := F) x0 i) (val_main_v40 (F := F) x0 i) (val_main_v14 (F := F) x0 i) := rfl

def val_main_v42 : (⟨S16x64x256x256, .i32⟩ : BufTy).Contents (Elt F) :=
  broadcastInDim S16x64x256x256 ![0, 1, 2, 3] bcast_S1x64x1x1_S16x64x256x256_0_1_2_3 (val_main_v36 (F := F))
abbrev idx_main_v42 (i : S16x64x256x256.Idx) : S1x64x1x1.Idx := fun a => match a with
  | ⟨0, _⟩ => ⟨0, Nat.one_pos⟩
  | ⟨1, _⟩ => ⟨(i 1).val, (i 1).isLt⟩
  | ⟨2, _⟩ => ⟨0, Nat.one_pos⟩
  | ⟨3, _⟩ => ⟨0, Nat.one_pos⟩
theorem val_main_v42_apply (i : S16x64x256x256.Idx) :
    val_main_v42 (F := F) i = val_main_v36 (F := F) (idx_main_v42 i) := by
  unfold val_main_v42
  generalize val_main_v36 (F := F) = y
  exact broadcastInDim_apply _ bcast_S1x64x1x1_S16x64x256x256_0_1_2_3 y i (idx_main_v42 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)]
    | ⟨2, _⟩ => by show 0 = if (1 : Nat) = 1 then 0 else (i 2).val; rw [if_pos rfl]
    | ⟨3, _⟩ => by show 0 = if (1 : Nat) = 1 then 0 else (i 3).val; rw [if_pos rfl])

def val_main_v43 : (⟨S16x64x256x256x1, .i32⟩ : BufTy).Contents (Elt F) :=
  broadcastInDim S16x64x256x256x1 ![0, 1, 2, 3] bcast_S16x64x256x256_S16x64x256x256x1_0_1_2_3 (val_main_v42 (F := F))
abbrev idx_main_v43 (i : S16x64x256x256x1.Idx) : S16x64x256x256.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v43_apply (i : S16x64x256x256x1.Idx) :
    val_main_v43 (F := F) i = val_main_v42 (F := F) (idx_main_v43 i) := by
  unfold val_main_v43
  generalize val_main_v42 (F := F) = y
  exact broadcastInDim_apply _ bcast_S16x64x256x256_S16x64x256x256x1_0_1_2_3 y i (idx_main_v43 i) (fun a => match a with
    | ⟨0, _⟩ => by show (i 0).val = if (16 : Nat) = 1 then 0 else (i 0).val; rw [if_neg (by decide)]
    | ⟨1, _⟩ => by show (i 1).val = if (64 : Nat) = 1 then 0 else (i 1).val; rw [if_neg (by decide)]
    | ⟨2, _⟩ => by show (i 2).val = if (256 : Nat) = 1 then 0 else (i 2).val; rw [if_neg (by decide)]
    | ⟨3, _⟩ => by show (i 3).val = if (256 : Nat) = 1 then 0 else (i 3).val; rw [if_neg (by decide)])

def val_main_v44 (x0 : (⟨S16x64x256x256, .f32⟩ : BufTy).Contents (Elt F)) : (⟨S16x64x256x256x1, .i32⟩ : BufTy).Contents (Elt F) :=
  broadcastInDim S16x64x256x256x1 ![0, 1, 2, 3] bcast_S16x64x256x256_S16x64x256x256x1_0_1_2_3 (val_main_v41 (F := F) x0)
abbrev idx_main_v44 (i : S16x64x256x256x1.Idx) : S16x64x256x256.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
theorem val_main_v44_apply (x0 : (⟨S16x64x256x256, .f32⟩ : BufTy).Contents (Elt F)) (i : S16x64x256x256x1.Idx) :
    val_main_v44 (F := F) x0 i = val_main_v41 (F := F) x0 (idx_main_v44 i) := by
  unfold val_main_v44
  generalize val_main_v41 (F := F) x0 = y
  exact broadcastInDim_apply _ bcast_S16x64x256x256_S16x64x256x256x1_0_1_2_3 y i (idx_main_v44 i) (fun a => match a with
    | ⟨0, _⟩ => by show (i 0).val = if (16 : Nat) = 1 then 0 else (i 0).val; rw [if_neg (by decide)]
    | ⟨1, _⟩ => by show (i 1).val = if (64 : Nat) = 1 then 0 else (i 1).val; rw [if_neg (by decide)]
    | ⟨2, _⟩ => by show (i 2).val = if (256 : Nat) = 1 then 0 else (i 2).val; rw [if_neg (by decide)]
    | ⟨3, _⟩ => by show (i 3).val = if (256 : Nat) = 1 then 0 else (i 3).val; rw [if_neg (by decide)])

-- the pairs
def val_main_v45 (x0 : (⟨S16x64x256x256, .f32⟩ : BufTy).Contents (Elt F)) : (⟨S16x64x256x256x2, .i32⟩ : BufTy).Contents (Elt F) :=
  concatenate S16x64x256x256x2 4 [⟨S16x64x256x256x1, (val_main_v43 (F := F))⟩, ⟨S16x64x256x256x1, (val_main_v44 (F := F) x0)⟩] concatenates_S16x64x256x256x1_S16x64x256x256x1_S16x64x256x256x2_d4

-- THE INTERCEPT LOOKED UP at each pair
def val_main_v46 (x0 : (⟨S16x64x256x256, .f32⟩ : BufTy).Contents (Elt F)) (x1 x2 : (⟨S64x20, .f32⟩ : BufTy).Contents (Elt F)) (x3 : (⟨S20, .i32⟩ : BufTy).Contents (Elt F)) : (⟨S16x64x256x256, .f32⟩ : BufTy).Contents (Elt F) :=
  Host.gather gather_S64x20_S16x64x256x256x2_S16x64x256x256_n_01_n_n_01_4_11 (val_main_v7 (F := F) x1 x2 x3) (val_main_v45 (F := F) x0)

/-! ## The result -/

-- slope times entry
def val_main_v47 (x0 : (⟨S16x64x256x256, .f32⟩ : BufTy).Contents (Elt F)) (x1 x2 : (⟨S64x20, .f32⟩ : BufTy).Contents (Elt F)) : (⟨S16x64x256x256, .f32⟩ : BufTy).Contents (Elt F) :=
  mulf (val_main_v31 (F := F) x0 x1 x2) (x0)
theorem val_main_v47_apply (x0 : (⟨S16x64x256x256, .f32⟩ : BufTy).Contents (Elt F)) (x1 x2 : (⟨S64x20, .f32⟩ : BufTy).Contents (Elt F)) (i : S16x64x256x256.Idx) :
    val_main_v47 (F := F) x0 x1 x2 i = FloatOps.mulf (val_main_v31 (F := F) x0 x1 x2 i) (x0 i) := rfl

-- THE RESULT: slope times entry, plus intercept
def val_main_v48 (x0 : (⟨S16x64x256x256, .f32⟩ : BufTy).Contents (Elt F)) (x1 x2 : (⟨S64x20, .f32⟩ : BufTy).Contents (Elt F)) (x3 : (⟨S20, .i32⟩ : BufTy).Contents (Elt F)) : (⟨S16x64x256x256, .f32⟩ : BufTy).Contents (Elt F) :=
  addf (val_main_v47 (F := F) x0 x1 x2) (val_main_v46 (F := F) x0 x1 x2 x3)
theorem val_main_v48_apply (x0 : (⟨S16x64x256x256, .f32⟩ : BufTy).Contents (Elt F)) (x1 x2 : (⟨S64x20, .f32⟩ : BufTy).Contents (Elt F)) (x3 : (⟨S20, .i32⟩ : BufTy).Contents (Elt F)) (i : S16x64x256x256.Idx) :
    val_main_v48 (F := F) x0 x1 x2 x3 i = FloatOps.addf (val_main_v47 (F := F) x0 x1 x2 i) (val_main_v46 (F := F) x0 x1 x2 x3 i) := rfl

end Cert.ReferenceIdeal.Stages

end
-- ==== Proof.RefSide.lean ====
/-
  The looked-up program's result is the function `G` of the input and of that program's own two tables.

  At `(b, c, h, w)` the program reads both tables at a pair of integers it has assembled beforehand: the channel
  number `c` and the bin `k` of the entry `x = X (b, c, h, w)`. Each of the two passes through the rule "a negative
  index counts from the end" — `c` is replaced by `c + 64`, `k` by `k + 20`, where it is negative as a signed word —
  and the lookup clamps what it receives into `[0, 63]` and `[0, 19]`. Neither is ever negative: `c < 64` as a
  natural number, and `0 ≤ k ≤ 19` because the bin is already clamped. So the rule leaves both alone, the clamps
  do nothing, and the table entry read is the one at row `c` and column `k`.
-/
import proofs.«140695_j74904229642249_2_alg».proof.Proof.RefStages
import proofs.«140695_j74904229642249_2_alg».proof.Proof.Spec
import Idealize.ShloMosaic.Lib.ValueIdx
import Idealize.ShloMosaic.Lib.Pipeline.Value
import Idealize.ShloMosaic.Lib.WordArith
import Idealize.ShloMosaic.PureOps.Ideal

noncomputable section

namespace Cert.ReferenceIdeal.RefValue

open Cert.ReferenceIdeal Cert.ReferenceIdeal.Stages Idealize.ShloMosaic Idealize.ShloMosaic.ValueIdx

/-! ## A table `[64, 20]` looked up at an array `[16, 64, 256, 256, 2]` of (row, column) pairs -/

section Lookup
variable {α : Type}

/-- The table's shape, the shape of the array of pairs, and the result's. -/
abbrev TS : Shape := ⟨2, ![64, 20]⟩
abbrev IS : Shape := ⟨5, ![16, 64, 256, 256, 2]⟩
abbrev RS : Shape := ⟨4, ![16, 64, 256, 256]⟩
/-- One component of the pairs: the same array with a last axis of extent one. -/
abbrev IS1 : Shape := ⟨5, ![16, 64, 256, 256, 1]⟩

/-- The lookup's dimension numbers: the pair sits on the last axis of the index array, its two components name
    the table's two axes in order, both axes are collapsed (a 1 × 1 window), and the result has the index
    array's other four axes. -/
abbrev pairDims (wf : GatherDims.WF TS IS RS [] [0, 1] [] [0, 1] [] 4 ![1, 1]) : GatherDims TS IS RS where
  offsetDims := []
  collapsedSliceDims := [0, 1]
  operandBatchingDims := []
  startIndicesBatchingDims := []
  startIndexMap := [0, 1]
  indexVectorDim := 4
  sliceSizes := ![1, 1]
  wf := wf

/-- Component `k` of the pair for result index `(b, c, h, w)` is read at `(b, c, h, w, k)`. -/
theorem pairDims_siIdx (wf : GatherDims.WF TS IS RS [] [0, 1] [] [0, 1] [] 4 ![1, 1])
    (b : Fin 16) (c : Fin 64) (h w : Fin 256) (k : Fin 2) :
    (pairDims wf).siIdx (ix4 b c h w) k = ix5 b c h w k := by
  funext a; refine Fin.ext ?_
  match a with
  | ⟨0, _⟩ => rfl
  | ⟨1, _⟩ => rfl
  | ⟨2, _⟩ => rfl
  | ⟨3, _⟩ => rfl
  | ⟨4, _⟩ => rfl

/-- THE LOOKUP READ AT `(b, c, h, w)`: the table at the pair `idx (b, c, h, w, ·)`, each component read signed and
    clamped into the table's range on its axis. -/
theorem gather_pair_apply {wd : Nat} (wf : GatherDims.WF TS IS RS [] [0, 1] [] [0, 1] [] 4 ![1, 1])
    (T : TS.Idx → α) (idx : IVec IS wd) (b : Fin 16) (c : Fin 64) (h w : Fin 256) :
    Host.gather (pairDims wf) T idx (ix4 b c h w)
      = T (ix2 ⟨min (idx (ix5 b c h w 0)).toInt.toNat 63, by omega⟩
               ⟨min (idx (ix5 b c h w 1)).toInt.toNat 19, by omega⟩) := by
  unfold Host.gather
  congr 1
  funext a
  refine Fin.ext ?_
  have hnk : ∀ a : Fin 2, a ∉ (pairDims wf).sKept := fun a hm => by
    have := ((GatherDims.mem_sKept _ _).mp hm).1
    apply this
    match a with
    | ⟨0, _⟩ => exact List.mem_cons_self
    | ⟨1, _⟩ => exact List.mem_cons_of_mem _ List.mem_cons_self
  show (pairDims wf).start (ix4 b c h w) idx a + (pairDims wf).batchCoord (ix4 b c h w) a
    + (pairDims wf).offCoord (ix4 b c h w) a = _
  rw [GatherDims.batchCoord_eq_zero _ _ _ List.not_mem_nil, GatherDims.offCoord_eq_zero _ _ _ (hnk a)]
  simp only [Nat.add_zero]
  unfold GatherDims.start
  match a with
  | ⟨0, e0⟩ =>
    have hm : (⟨0, e0⟩ : Fin TS.rank) ∈ (pairDims wf).startIndexMap := List.mem_cons_self
    rw [dif_pos hm, pairDims_siIdx]
    rfl
  | ⟨1, e1⟩ =>
    have hm : (⟨1, e1⟩ : Fin TS.rank) ∈ (pairDims wf).startIndexMap := List.mem_cons_of_mem _ List.mem_cons_self
    rw [dif_pos hm, pairDims_siIdx]
    rfl

/-- Two components joined along the last axis: at `(b, c, h, w, 0)` the first … -/
theorem concat_comp0 (hc : Shape.Concatenates [IS1, IS1] IS 4) (x₁ x₂ : IS1.Idx → α)
    (b : Fin 16) (c : Fin 64) (h w : Fin 256) :
    concatenate IS 4 [⟨IS1, x₁⟩, ⟨IS1, x₂⟩] hc (ix5 b c h w 0) = x₁ (ix5 b c h w 0) :=
  concatenate_pair_apply_left 4 x₁ x₂ hc (ix5 b c h w 0) rfl (ix5 b c h w 0) (fun a => match a with
    | ⟨0, _⟩ => rfl
    | ⟨1, _⟩ => rfl
    | ⟨2, _⟩ => rfl
    | ⟨3, _⟩ => rfl
    | ⟨4, _⟩ => rfl)

/-- … and at `(b, c, h, w, 1)` the second. -/
theorem concat_comp1 (hc : Shape.Concatenates [IS1, IS1] IS 4) (x₁ x₂ : IS1.Idx → α)
    (b : Fin 16) (c : Fin 64) (h w : Fin 256) :
    concatenate IS 4 [⟨IS1, x₁⟩, ⟨IS1, x₂⟩] hc (ix5 b c h w 1) = x₂ (ix5 b c h w 0) :=
  concatenate_pair_apply_right 4 x₁ x₂ hc (ix5 b c h w 1) rfl rfl (ix5 b c h w 0) (fun a => match a with
    | ⟨0, _⟩ => fun _ => rfl
    | ⟨1, _⟩ => fun _ => rfl
    | ⟨2, _⟩ => fun _ => rfl
    | ⟨3, _⟩ => fun _ => rfl
    | ⟨4, _⟩ => fun hne => absurd rfl hne) rfl

/-- Two rank-2 indices with the same coordinates are equal. -/
theorem ix2_congr {n0 n1 : Nat} {a a' : Fin n0} {b b' : Fin n1} (ha : a.val = a'.val) (hb : b.val = b'.val) :
    ix2 a b = ix2 a' b' := by
  obtain rfl := Fin.ext ha
  obtain rfl := Fin.ext hb
  rfl

end Lookup

/-! ## Words that are not negative -/

/-- A word that is not negative as a signed integer is not below zero. -/
theorem slt_zero_of_nonneg (v : BitVec 32) (hv : 0 ≤ v.toInt) : v.slt 0#32 = false := by
  simp only [BitVec.slt, BitVec.toInt_zero]
  exact decide_eq_false (by omega)

/-- "A negative index counts from the end" leaves an index that is not negative alone. -/
theorem select_slt_zero_of_nonneg (v m : BitVec 32) (hv : 0 ≤ v.toInt) :
    Scalar.select (IntOp.cmpi .slt v 0#32) (IntOp.addi v m) v = v := by
  show (if BitVec.ofBool (v.slt 0#32) = 1 then _ else v) = v
  rw [slt_zero_of_nonneg v hv]
  exact if_neg (by decide)

/-- A channel number, as a word, reads signed as itself … -/
theorem toInt_ofNat_lt64 (c : Nat) (hc : c < 64) : (BitVec.ofNat 32 c).toInt = c :=
  WordArith.toInt_ofNat_small c (by omega)

/-- … so clamping it into `[0, 63]` gives it back. -/
theorem clamp_ofNat_lt64 (c : Nat) (hc : c < 64) : min (BitVec.ofNat 32 c).toInt.toNat 63 = c := by
  rw [toInt_ofNat_lt64 c hc]; omega

/-- A word between `0` and `19` clamped into `[0, 19]` is the natural number it holds. -/
theorem clamp_of_range (k : BitVec 32) (h0 : 0 ≤ k.toInt) (h1 : k.toInt ≤ 19) : min k.toInt.toNat 19 = k.toNat := by
  have := BitVec.toInt_eq_toNat_cond k
  split at this <;> omega

/-- The lookup at a pair whose first component is the channel number `c` and whose second is the bin of `u`:
    the table at row `c` and the column the bin names. -/
theorem gather_pair_bin {α : Type} (wf : GatherDims.WF TS IS RS [] [0, 1] [] [0, 1] [] 4 ![1, 1])
    (T : TS.Idx → α) (idx : IVec IS 32) (b : Fin 16) (c : Fin 64) (h w : Fin 256) (u : EReal)
    (h0 : idx (ix5 b c h w 0) = BitVec.ofNat 32 c.val) (h1 : idx (ix5 b c h w 1) = Cert.Mtlu.bin u) :
    Host.gather (pairDims wf) T idx (ix4 b c h w) = T (ix2 c (Cert.Mtlu.binFin u)) := by
  rw [gather_pair_apply]
  refine congrArg T (ix2_congr ?_ ?_)
  · show min (idx (ix5 b c h w 0)).toInt.toNat 63 = c.val
    rw [h0]; exact clamp_ofNat_lt64 _ c.isLt
  · show min (idx (ix5 b c h w 1)).toInt.toNat 19 = (Cert.Mtlu.binFin u).val
    rw [h1, Cert.Mtlu.binFin_val]
    exact clamp_of_range _ (Cert.Mtlu.bin_range u).1 (Cert.Mtlu.bin_range u).2

/-! ## The pair the program assembles -/

section Pair
variable {F : FTy → Type} [FloatOps F]

/-- The channel numbers `0, …, 63` laid along the second of four axes: at any index, the word of its second
    coordinate. -/
theorem v16_at (i : S1x64x1x1.Idx) : val_main_v16 (F := F) i = BitVec.ofNat 32 (i 1).val := by
  rw [val_main_v16_apply, val_main_v15_apply]
  refine congrArg (BitVec.ofNat 32) ?_
  have h0 : (i 0).val < 1 := (i 0).isLt
  have h2 : (i 2).val < 1 := (i 2).isLt
  have h3 : (i 3).val < 1 := (i 3).isLt
  show (((i 0).val * 64 + (i 1).val) * 1 + (i 2).val) * 1 + (i 3).val = (i 1).val
  omega

/-- A channel number is not negative, so "negative counts from the end" keeps it (first lookup) … -/
theorem v21_at (i : S1x64x1x1.Idx) : val_main_v21 (F := F) i = BitVec.ofNat 32 (i 1).val := by
  rw [val_main_v21_apply, val_main_v18_apply, val_main_v20_apply, val_main_v17_apply, val_main_c_3_apply, v16_at]
  exact select_slt_zero_of_nonneg _ _ (by rw [toInt_ofNat_lt64 _ (i 1).isLt]; omega)

/-- … (second lookup). -/
theorem v36_at (i : S1x64x1x1.Idx) : val_main_v36 (F := F) i = BitVec.ofNat 32 (i 1).val := by
  rw [val_main_v36_apply, val_main_v33_apply, val_main_v35_apply, val_main_v32_apply, val_main_c_7_apply, v16_at]
  exact select_slt_zero_of_nonneg _ _ (by rw [toInt_ofNat_lt64 _ (i 1).isLt]; omega)

/-- Spread over the input's shape and given a last axis of extent one, it is still the word of the second
    coordinate (first lookup) … -/
theorem v28_at (i : S16x64x256x256x1.Idx) : val_main_v28 (F := F) i = BitVec.ofNat 32 (i 1).val :=
  (val_main_v28_apply i).trans ((val_main_v27_apply _).trans (v21_at _))

/-- … (second lookup). -/
theorem v43_at (i : S16x64x256x256x1.Idx) : val_main_v43 (F := F) i = BitVec.ofNat 32 (i 1).val :=
  (val_main_v43_apply i).trans ((val_main_v42_apply _).trans (v36_at _))

end Pair

/-- The clipped bin word the program computes from an entry is `bin` of the entry: the quotient by `0.1`, its
    floor, the floor as a word, plus ten, the larger of that and `0`, the smaller of that and `19`. -/
theorem v14_eq_bin (x : (⟨S16x64x256x256, .f32⟩ : BufTy).Contents (Elt Ideal)) (i : S16x64x256x256.Idx) :
    val_main_v14 (F := Ideal) x i = Cert.Mtlu.bin (x i) := by
  rw [val_main_v14_apply, val_main_call0_v4_apply, val_main_call0_v3_apply, val_main_c_2_apply,
    val_main_call0_v2_apply, val_main_call0_v1_apply, val_main_call0_v0_apply, val_main_c_1_apply,
    val_main_v13_apply, val_main_v12_apply, val_main_c_apply, val_main_v11_apply, val_main_v10_apply,
    val_main_v9_apply, val_main_v8_apply, val_main_cst_0_apply]
  rfl

/-- The bin is not negative, so "negative counts from the end" keeps it (first lookup) … -/
theorem v26_at (x : (⟨S16x64x256x256, .f32⟩ : BufTy).Contents (Elt Ideal)) (i : S16x64x256x256.Idx) :
    val_main_v26 (F := Ideal) x i = Cert.Mtlu.bin (x i) := by
  rw [val_main_v26_apply, val_main_v23_apply, val_main_v25_apply, val_main_v22_apply, val_main_c_5_apply, v14_eq_bin]
  exact select_slt_zero_of_nonneg _ _ (Cert.Mtlu.bin_range _).1

/-- … (second lookup). -/
theorem v41_at (x : (⟨S16x64x256x256, .f32⟩ : BufTy).Contents (Elt Ideal)) (i : S16x64x256x256.Idx) :
    val_main_v41 (F := Ideal) x i = Cert.Mtlu.bin (x i) := by
  rw [val_main_v41_apply, val_main_v38_apply, val_main_v40_apply, val_main_v37_apply, val_main_c_9_apply, v14_eq_bin]
  exact select_slt_zero_of_nonneg _ _ (Cert.Mtlu.bin_range _).1

/-- Dropping the last coordinate of `(b, c, h, w, 0)` (first lookup) … -/
theorem idx29_ix5 (b : Fin 16) (c : Fin 64) (h w : Fin 256) (k : Fin 1) :
    idx_main_v29 (ix5 b c h w k) = ix4 b c h w := by
  funext a
  match a with
  | ⟨0, _⟩ => rfl
  | ⟨1, _⟩ => rfl
  | ⟨2, _⟩ => rfl
  | ⟨3, _⟩ => rfl

/-- … (second lookup). -/
theorem idx44_ix5 (b : Fin 16) (c : Fin 64) (h w : Fin 256) (k : Fin 1) :
    idx_main_v44 (ix5 b c h w k) = ix4 b c h w := by
  funext a
  match a with
  | ⟨0, _⟩ => rfl
  | ⟨1, _⟩ => rfl
  | ⟨2, _⟩ => rfl
  | ⟨3, _⟩ => rfl

/-- The pair's two components at `(b, c, h, w)`: the channel number's word and the entry's bin (first lookup) … -/
theorem v30_comp0 (x : (⟨S16x64x256x256, .f32⟩ : BufTy).Contents (Elt Ideal))
    (b : Fin 16) (c : Fin 64) (h w : Fin 256) :
    val_main_v30 (F := Ideal) x (ix5 b c h w 0) = BitVec.ofNat 32 c.val :=
  (concat_comp0 _ _ _ b c h w).trans (v28_at _)

theorem v30_comp1 (x : (⟨S16x64x256x256, .f32⟩ : BufTy).Contents (Elt Ideal))
    (b : Fin 16) (c : Fin 64) (h w : Fin 256) :
    val_main_v30 (F := Ideal) x (ix5 b c h w 1) = Cert.Mtlu.bin (x (ix4 b c h w)) := by
  refine (concat_comp1 _ _ _ b c h w).trans ?_
  rw [val_main_v29_apply, v26_at, idx29_ix5]

/-- … (second lookup). -/
theorem v45_comp0 (x : (⟨S16x64x256x256, .f32⟩ : BufTy).Contents (Elt Ideal))
    (b : Fin 16) (c : Fin 64) (h w : Fin 256) :
    val_main_v45 (F := Ideal) x (ix5 b c h w 0) = BitVec.ofNat 32 c.val :=
  (concat_comp0 _ _ _ b c h w).trans (v43_at _)

theorem v45_comp1 (x : (⟨S16x64x256x256, .f32⟩ : BufTy).Contents (Elt Ideal))
    (b : Fin 16) (c : Fin 64) (h w : Fin 256) :
    val_main_v45 (F := Ideal) x (ix5 b c h w 1) = Cert.Mtlu.bin (x (ix4 b c h w)) := by
  refine (concat_comp1 _ _ _ b c h w).trans ?_
  rw [val_main_v44_apply, v41_at, idx44_ix5]

/-! ## The result -/

/-- THE LOOKED-UP PROGRAM'S RESULT is `G` of the input, the slope table `(y − y') / 0.1` and the intercept table the
    program forms: at `(b, c, h, w)` both lookups read row `c` and the column the entry's bin names. -/
theorem ref_eq (x : (⟨S16x64x256x256, .f32⟩ : BufTy).Contents (Elt Ideal)) (y yp : (⟨S64x20, .f32⟩ : BufTy).Contents (Elt Ideal))
    (iv : (⟨S20, .i32⟩ : BufTy).Contents (Elt Ideal)) :
    val_main_v48 (F := Ideal) x y yp iv
      = Cert.Mtlu.G x (val_main_v2 (F := Ideal) y yp) (val_main_v7 (F := Ideal) y yp iv) := by
  funext i
  obtain ⟨b, c, h, w, rfl⟩ : ∃ b c h w, i = ix4 b c h w := ⟨i 0, i 1, i 2, i 3, eq_ix4 i⟩
  have e31 : val_main_v31 (F := Ideal) x y yp (ix4 b c h w)
      = val_main_v2 (F := Ideal) y yp (ix2 c (Cert.Mtlu.binFin (x (ix4 b c h w)))) :=
    gather_pair_bin _ _ _ b c h w _ (v30_comp0 x b c h w) (v30_comp1 x b c h w)
  have e46 : val_main_v46 (F := Ideal) x y yp iv (ix4 b c h w)
      = val_main_v7 (F := Ideal) y yp iv (ix2 c (Cert.Mtlu.binFin (x (ix4 b c h w)))) :=
    gather_pair_bin _ _ _ b c h w _ (v45_comp0 x b c h w) (v45_comp1 x b c h w)
  rw [val_main_v48_apply, val_main_v47_apply, e31, e46]
  rfl

end Cert.ReferenceIdeal.RefValue

end
-- ==== Proof.Bridge.lean ====
/-
  The claims, from the two sides.

  The kernel's run leaves the result array at `G` of the input and of the two tables of the launch contents
  (the blocks module, under the finiteness the precondition gives); the reference's run leaves its result at
  its stages' composed term, which is `G` of its own input and tables (the reference module); on memories that
  agree on the arguments the two tables are the same operations of the same arrays, so the results are equal.
-/
import proofs.«140695_j74904229642249_2_alg».proof.Defs
import proofs.«140695_j74904229642249_2_alg».proof.Proof.Gen.Kernel.Frame
import proofs.«140695_j74904229642249_2_alg».proof.Proof.Gen.KernelIdeal.Value
import proofs.«140695_j74904229642249_2_alg».proof.Proof.Gen.Pre_finite_inputs
import proofs.«140695_j74904229642249_2_alg».proof.Proof.Blocks
import proofs.«140695_j74904229642249_2_alg».proof.Proof.BodyPoint
import proofs.«140695_j74904229642249_2_alg».proof.Proof.Finite
import proofs.«140695_j74904229642249_2_alg».proof.Proof.RefSide

noncomputable section

namespace Cert.Proof.Bridge

open Idealize.ShloMosaic Idealize.ShloMosaic.TcCoe Idealize.SL.Sem

/-- What the reference's run gives: every weakly fair execution ends with the result at the stages' composed
    term of the launch contents and the arguments unchanged. -/
def RefRuns : Prop :=
  ∀ (m' : (ℓ : Loc Cert.ReferenceIdeal.nD Cert.ReferenceIdeal.τ Cert.ReferenceIdeal.sig) → Buf (Elt Ideal) ℓ)
    (ρ' : Dev Cert.ReferenceIdeal.nD → PrngReg),
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v48)
          = Cert.ReferenceIdeal.Stages.val_main_v48 (F := Ideal)
              (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri (h : RefRuns) : Cert.frame_ReferenceIdeal := fun m ρ _ =>
  (θ_run Cert.ReferenceIdeal.defs _ _).mono (fun _ hh c => (hh c).2) (h m ρ)

/-- Both runs end at `G` of the input and the two tables: the kernel's by its blocks and the telescoping law
    (the tables real under the precondition), the reference's by its gathers; the memories agree on the
    arguments, so the two `G` terms are one. -/
theorem algebraic (h : RefRuns) : Cert.algebraic_KernelIdeal_ReferenceIdeal := by
  intro m ρ m' ρ' hpre hagree
  have hr := fun c => Cert.KernelIdeal.Finite.anchors_real m hpre c
  refine ⟨fun c => Cert.Mtlu.G (m ((c.tc : Thread Cert.KernelIdeal.nD Cert.KernelIdeal.τ).loc Cert.KernelIdeal.main_arg0))
      (Cert.KernelIdeal.HostTabs.Wt m c) (Cert.KernelIdeal.HostTabs.Bt m c),
    Cert.KernelIdeal.Blocks.run m ρ Cert.KernelIdeal.BodyPoint.out_apply
      (fun c i => Cert.KernelIdeal.Finite.Wt_real m c (hr c).1 (hr c).2 i)
      (fun c i => Cert.KernelIdeal.Finite.Bt_real m c (hr c).1 (hr c).2 i), ?_⟩
  refine (θ_run Cert.ReferenceIdeal.defs _ _).mono (fun _ hh c => ⟨(hh c).1.trans ?_, (hh c).2⟩) (h m' ρ')
  rw [Cert.ReferenceIdeal.RefValue.ref_eq, (hagree c).1, (hagree c).2.1, (hagree c).2.2.1, (hagree c).2.2.2]
  rfl

end Cert.Proof.Bridge

end
-- ==== Proof.RefRun.lean ====
/-
  The looked-up program run from any launch memory: its @main is a straight line of 67 host operations, so every
  weakly fair execution terminates, and each buffer ends at the fold of the operations' results over the launch
  contents. Read at the result buffer that fold is the composition of the operations' functions — the stages
  `Stages.val_main_v48` of the four arguments — and read at an argument buffer it is the argument, which no
  operation writes.

  The fold is computed by rewriting each operation's result at its own buffer to its function's value. The two
  operations that lay the (row, column) pairs side by side take their operands inside a list of (shape, array) pairs,
  so the equation for the result is split by congruence at those two lists and each of the four operands is computed
  on its own.
-/
import proofs.«140695_j74904229642249_2_alg».proof.Proof.Gen.ReferenceIdeal
import proofs.«140695_j74904229642249_2_alg».proof.Proof.RefStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 67 operations, in order (a called function's operations stand in its call's place, spelt `TRef.…`). -/
abbrev ops : List (HloOp τ sig (Elt F)) :=
  [ binary main_arg1 main_arg2 main_v0 (subf : (⟨S64x20, .f32⟩ : BufTy).Contents (Elt F) → (⟨S64x20, .f32⟩ : BufTy).Contents (Elt F) → (⟨S64x20, .f32⟩ : BufTy).Contents (Elt F)),
    nullary main_cst (constant S_ .f32 0x3DCCCCCD#32),
    unary main_cst main_v1 (broadcastInDim S64x20 ![] bcast_S_S64x20 : (⟨S_, .f32⟩ : BufTy).Contents (Elt F) → (⟨S64x20, .f32⟩ : BufTy).Contents (Elt F)),
    binary main_v0 main_v1 main_v2 (Host.divf : (⟨S64x20, .f32⟩ : BufTy).Contents (Elt F) → (⟨S64x20, .f32⟩ : BufTy).Contents (Elt F) → (⟨S64x20, .f32⟩ : BufTy).Contents (Elt F)),
    unary main_arg3 main_v3 (sitofp .f32 : (⟨S20, .i32⟩ : BufTy).Contents (Elt F) → (⟨S20, .f32⟩ : BufTy).Contents (Elt F)),
    unary main_v3 main_v4 (broadcastInDim S1x20 ![1] bcast_S20_S1x20_1 : (⟨S20, .f32⟩ : BufTy).Contents (Elt F) → (⟨S1x20, .f32⟩ : BufTy).Contents (Elt F)),
    unary main_v4 main_v5 (broadcastInDim S64x20 ![0, 1] bcast_S1x20_S64x20_0_1 : (⟨S1x20, .f32⟩ : BufTy).Contents (Elt F) → (⟨S64x20, .f32⟩ : BufTy).Contents (Elt F)),
    binary main_v0 main_v5 main_v6 (mulf : (⟨S64x20, .f32⟩ : BufTy).Contents (Elt F) → (⟨S64x20, .f32⟩ : BufTy).Contents (Elt F) → (⟨S64x20, .f32⟩ : BufTy).Contents (Elt F)),
    binary main_arg1 main_v6 main_v7 (subf : (⟨S64x20, .f32⟩ : BufTy).Contents (Elt F) → (⟨S64x20, .f32⟩ : BufTy).Contents (Elt F) → (⟨S64x20, .f32⟩ : BufTy).Contents (Elt F)),
    nullary main_cst_0 (constant S_ .f32 0x3DCCCCCD#32),
    unary main_cst_0 main_v8 (broadcastInDim S16x64x256x256 ![] bcast_S_S16x64x256x256 : (⟨S_, .f32⟩ : BufTy).Contents (Elt F) → (⟨S16x64x256x256, .f32⟩ : BufTy).Contents (Elt F)),
    binary main_arg0 main_v8 main_v9 (Host.divf : (⟨S16x64x256x256, .f32⟩ : BufTy).Contents (Elt F) → (⟨S16x64x256x256, .f32⟩ : BufTy).Contents (Elt F) → (⟨S16x64x256x256, .f32⟩ : BufTy).Contents (Elt F)),
    unary main_v9 main_v10 (Host.floor : (⟨S16x64x256x256, .f32⟩ : BufTy).Contents (Elt F) → (⟨S16x64x256x256, .f32⟩ : BufTy).Contents (Elt F)),
    unary main_v10 main_v11 (fptosi 32 : (⟨S16x64x256x256, .f32⟩ : BufTy).Contents (Elt F) → (⟨S16x64x256x256, .i32⟩ : BufTy).Contents (Elt F)),
    nullary main_c (constantI S_ 32 10#32),
    unary main_c main_v12 (broadcastInDim S16x64x256x256 ![] bcast_S_S16x64x256x256 : (⟨S_, .i32⟩ : BufTy).Contents (Elt F) → (⟨S16x64x256x256, .i32⟩ : BufTy).Contents (Elt F)),
    binary main_v11 main_v12 main_v13 (addi : (⟨S16x64x256x256, .i32⟩ : BufTy).Contents (Elt F) → (⟨S16x64x256x256, .i32⟩ : BufTy).Contents (Elt F) → (⟨S16x64x256x256, .i32⟩ : BufTy).Contents (Elt F)),
    nullary main_c_1 (constantI S_ 32 0#32),
    nullary main_c_2 (constantI S_ 32 19#32),
    TRef.unary (TRef.of (T := ⟨S_, .i32⟩) main_c_1) (TRef.of (T := ⟨S_, .i32⟩) main_call0_v0) id,
    TRef.unary (TRef.of (T := ⟨S_, .i32⟩) main_call0_v0) (TRef.of (T := ⟨S16x64x256x256, .i32⟩) main_call0_v1) (broadcastInDim S16x64x256x256 ![] bcast_S_S16x64x256x256),
    TRef.binary (TRef.of (T := ⟨S16x64x256x256, .i32⟩) main_call0_v1) (TRef.of (T := ⟨S16x64x256x256, .i32⟩) main_v13) (TRef.of (T := ⟨S16x64x256x256, .i32⟩) main_call0_v2) maxsi,
    TRef.unary (TRef.of (T := ⟨S_, .i32⟩) main_c_2) (TRef.of (T := ⟨S_, .i32⟩) main_call0_v3) id,
    TRef.unary (TRef.of (T := ⟨S_, .i32⟩) main_call0_v3) (TRef.of (T := ⟨S16x64x256x256, .i32⟩) main_call0_v4) (broadcastInDim S16x64x256x256 ![] bcast_S_S16x64x256x256),
    TRef.binary (TRef.of (T := ⟨S16x64x256x256, .i32⟩) main_call0_v4) (TRef.of (T := ⟨S16x64x256x256, .i32⟩) main_call0_v2) (TRef.of (T := ⟨S16x64x256x256, .i32⟩) main_v14) minsi,
    nullary main_v15 (iotaInDim S64 32 0),
    reshape main_v15 main_v16 rfl shapeCasts_S64_S1x64x1x1,
    nullary main_c_3 (constantI S_ 32 0#32),
    unary main_c_3 main_v17 (broadcastInDim S1x64x1x1 ![] bcast_S_S1x64x1x1 : (⟨S_, .i32⟩ : BufTy).Contents (Elt F) → (⟨S1x64x1x1, .i32⟩ : BufTy).Contents (Elt F)),
    binary main_v16 main_v17 main_v18 (cmpi .slt : (⟨S1x64x1x1, .i32⟩ : BufTy).Contents (Elt F) → (⟨S1x64x1x1, .i32⟩ : BufTy).Contents (Elt F) → (⟨S1x64x1x1, .i1⟩ : BufTy).Contents (Elt F)),
    nullary main_c_4 (constantI S_ 32 64#32),
    unary main_c_4 main_v19 (broadcastInDim S1x64x1x1 ![] bcast_S_S1x64x1x1 : (⟨S_, .i32⟩ : BufTy).Contents (Elt F) → (⟨S1x64x1x1, .i32⟩ : BufTy).Contents (Elt F)),
    binary main_v16 main_v19 main_v20 (addi : (⟨S1x64x1x1, .i32⟩ : BufTy).Contents (Elt F) → (⟨S1x64x1x1, .i32⟩ : BufTy).Contents (Elt F) → (⟨S1x64x1x1, .i32⟩ : BufTy).Contents (Elt F)),
    ternary main_v18 main_v20 main_v16 main_v21 (select : (⟨S1x64x1x1, .i1⟩ : BufTy).Contents (Elt F) → (⟨S1x64x1x1, .i32⟩ : BufTy).Contents (Elt F) → (⟨S1x64x1x1, .i32⟩ : BufTy).Contents (Elt F) → (⟨S1x64x1x1, .i32⟩ : BufTy).Contents (Elt F)),
    nullary main_c_5 (constantI S_ 32 0#32),
    unary main_c_5 main_v22 (broadcastInDim S16x64x256x256 ![] bcast_S_S16x64x256x256 : (⟨S_, .i32⟩ : BufTy).Contents (Elt F) → (⟨S16x64x256x256, .i32⟩ : BufTy).Contents (Elt F)),
    binary main_v14 main_v22 main_v23 (cmpi .slt : (⟨S16x64x256x256, .i32⟩ : BufTy).Contents (Elt F) → (⟨S16x64x256x256, .i32⟩ : BufTy).Contents (Elt F) → (⟨S16x64x256x256, .i1⟩ : BufTy).Contents (Elt F)),
    nullary main_c_6 (constantI S_ 32 20#32),
    unary main_c_6 main_v24 (broadcastInDim S16x64x256x256 ![] bcast_S_S16x64x256x256 : (⟨S_, .i32⟩ : BufTy).Contents (Elt F) → (⟨S16x64x256x256, .i32⟩ : BufTy).Contents (Elt F)),
    binary main_v14 main_v24 main_v25 (addi : (⟨S16x64x256x256, .i32⟩ : BufTy).Contents (Elt F) → (⟨S16x64x256x256, .i32⟩ : BufTy).Contents (Elt F) → (⟨S16x64x256x256, .i32⟩ : BufTy).Contents (Elt F)),
    ternary main_v23 main_v25 main_v14 main_v26 (select : (⟨S16x64x256x256, .i1⟩ : BufTy).Contents (Elt F) → (⟨S16x64x256x256, .i32⟩ : BufTy).Contents (Elt F) → (⟨S16x64x256x256, .i32⟩ : BufTy).Contents (Elt F) → (⟨S16x64x256x256, .i32⟩ : BufTy).Contents (Elt F)),
    unary main_v21 main_v27 (broadcastInDim S16x64x256x256 ![0, 1, 2, 3] bcast_S1x64x1x1_S16x64x256x256_0_1_2_3 : (⟨S1x64x1x1, .i32⟩ : BufTy).Contents (Elt F) → (⟨S16x64x256x256, .i32⟩ : BufTy).Contents (Elt F)),
    unary main_v27 main_v28 (broadcastInDim S16x64x256x256x1 ![0, 1, 2, 3] bcast_S16x64x256x256_S16x64x256x256x1_0_1_2_3 : (⟨S16x64x256x256, .i32⟩ : BufTy).Contents (Elt F) → (⟨S16x64x256x256x1, .i32⟩ : BufTy).Contents (Elt F)),
    unary main_v26 main_v29 (broadcastInDim S16x64x256x256x1 ![0, 1, 2, 3] bcast_S16x64x256x256_S16x64x256x256x1_0_1_2_3 : (⟨S16x64x256x256, .i32⟩ : BufTy).Contents (Elt F) → (⟨S16x64x256x256x1, .i32⟩ : BufTy).Contents (Elt F)),
    binary main_v28 main_v29 main_v30 ((fun a b => concatenate S16x64x256x256x2 4 [⟨S16x64x256x256x1, a⟩, ⟨S16x64x256x256x1, b⟩] concatenates_S16x64x256x256x1_S16x64x256x256x1_S16x64x256x256x2_d4) : (⟨S16x64x256x256x1, .i32⟩ : BufTy).Contents (Elt F) → (⟨S16x64x256x256x1, .i32⟩ : BufTy).Contents (Elt F) → (⟨S16x64x256x256x2, .i32⟩ : BufTy).Contents (Elt F)),
    binary main_v2 main_v30 main_v31 ((fun x i => Host.gather gather_S64x20_S16x64x256x256x2_S16x64x256x256_n_01_n_n_01_4_11 x i) : (⟨S64x20, .f32⟩ : BufTy).Contents (Elt F) → (⟨S16x64x256x256x2, .i32⟩ : BufTy).Contents (Elt F) → (⟨S16x64x256x256, .f32⟩ : BufTy).Contents (Elt F)),
    nullary main_c_7 (constantI S_ 32 0#32),
    unary main_c_7 main_v32 (broadcastInDim S1x64x1x1 ![] bcast_S_S1x64x1x1 : (⟨S_, .i32⟩ : BufTy).Contents (Elt F) → (⟨S1x64x1x1, .i32⟩ : BufTy).Contents (Elt F)),
    binary main_v16 main_v32 main_v33 (cmpi .slt : (⟨S1x64x1x1, .i32⟩ : BufTy).Contents (Elt F) → (⟨S1x64x1x1, .i32⟩ : BufTy).Contents (Elt F) → (⟨S1x64x1x1, .i1⟩ : BufTy).Contents (Elt F)),
    nullary main_c_8 (constantI S_ 32 64#32),
    unary main_c_8 main_v34 (broadcastInDim S1x64x1x1 ![] bcast_S_S1x64x1x1 : (⟨S_, .i32⟩ : BufTy).Contents (Elt F) → (⟨S1x64x1x1, .i32⟩ : BufTy).Contents (Elt F)),
    binary main_v16 main_v34 main_v35 (addi : (⟨S1x64x1x1, .i32⟩ : BufTy).Contents (Elt F) → (⟨S1x64x1x1, .i32⟩ : BufTy).Contents (Elt F) → (⟨S1x64x1x1, .i32⟩ : BufTy).Contents (Elt F)),
    ternary main_v33 main_v35 main_v16 main_v36 (select : (⟨S1x64x1x1, .i1⟩ : BufTy).Contents (Elt F) → (⟨S1x64x1x1, .i32⟩ : BufTy).Contents (Elt F) → (⟨S1x64x1x1, .i32⟩ : BufTy).Contents (Elt F) → (⟨S1x64x1x1, .i32⟩ : BufTy).Contents (Elt F)),
    nullary main_c_9 (constantI S_ 32 0#32),
    unary main_c_9 main_v37 (broadcastInDim S16x64x256x256 ![] bcast_S_S16x64x256x256 : (⟨S_, .i32⟩ : BufTy).Contents (Elt F) → (⟨S16x64x256x256, .i32⟩ : BufTy).Contents (Elt F)),
    binary main_v14 main_v37 main_v38 (cmpi .slt : (⟨S16x64x256x256, .i32⟩ : BufTy).Contents (Elt F) → (⟨S16x64x256x256, .i32⟩ : BufTy).Contents (Elt F) → (⟨S16x64x256x256, .i1⟩ : BufTy).Contents (Elt F)),
    nullary main_c_10 (constantI S_ 32 20#32),
    unary main_c_10 main_v39 (broadcastInDim S16x64x256x256 ![] bcast_S_S16x64x256x256 : (⟨S_, .i32⟩ : BufTy).Contents (Elt F) → (⟨S16x64x256x256, .i32⟩ : BufTy).Contents (Elt F)),
    binary main_v14 main_v39 main_v40 (addi : (⟨S16x64x256x256, .i32⟩ : BufTy).Contents (Elt F) → (⟨S16x64x256x256, .i32⟩ : BufTy).Contents (Elt F) → (⟨S16x64x256x256, .i32⟩ : BufTy).Contents (Elt F)),
    ternary main_v38 main_v40 main_v14 main_v41 (select : (⟨S16x64x256x256, .i1⟩ : BufTy).Contents (Elt F) → (⟨S16x64x256x256, .i32⟩ : BufTy).Contents (Elt F) → (⟨S16x64x256x256, .i32⟩ : BufTy).Contents (Elt F) → (⟨S16x64x256x256, .i32⟩ : BufTy).Contents (Elt F)),
    unary main_v36 main_v42 (broadcastInDim S16x64x256x256 ![0, 1, 2, 3] bcast_S1x64x1x1_S16x64x256x256_0_1_2_3 : (⟨S1x64x1x1, .i32⟩ : BufTy).Contents (Elt F) → (⟨S16x64x256x256, .i32⟩ : BufTy).Contents (Elt F)),
    unary main_v42 main_v43 (broadcastInDim S16x64x256x256x1 ![0, 1, 2, 3] bcast_S16x64x256x256_S16x64x256x256x1_0_1_2_3 : (⟨S16x64x256x256, .i32⟩ : BufTy).Contents (Elt F) → (⟨S16x64x256x256x1, .i32⟩ : BufTy).Contents (Elt F)),
    unary main_v41 main_v44 (broadcastInDim S16x64x256x256x1 ![0, 1, 2, 3] bcast_S16x64x256x256_S16x64x256x256x1_0_1_2_3 : (⟨S16x64x256x256, .i32⟩ : BufTy).Contents (Elt F) → (⟨S16x64x256x256x1, .i32⟩ : BufTy).Contents (Elt F)),
    binary main_v43 main_v44 main_v45 ((fun a b => concatenate S16x64x256x256x2 4 [⟨S16x64x256x256x1, a⟩, ⟨S16x64x256x256x1, b⟩] concatenates_S16x64x256x256x1_S16x64x256x256x1_S16x64x256x256x2_d4) : (⟨S16x64x256x256x1, .i32⟩ : BufTy).Contents (Elt F) → (⟨S16x64x256x256x1, .i32⟩ : BufTy).Contents (Elt F) → (⟨S16x64x256x256x2, .i32⟩ : BufTy).Contents (Elt F)),
    binary main_v7 main_v45 main_v46 ((fun x i => Host.gather gather_S64x20_S16x64x256x256x2_S16x64x256x256_n_01_n_n_01_4_11 x i) : (⟨S64x20, .f32⟩ : BufTy).Contents (Elt F) → (⟨S16x64x256x256x2, .i32⟩ : BufTy).Contents (Elt F) → (⟨S16x64x256x256, .f32⟩ : BufTy).Contents (Elt F)),
    binary main_v31 main_arg0 main_v47 (mulf : (⟨S16x64x256x256, .f32⟩ : BufTy).Contents (Elt F) → (⟨S16x64x256x256, .f32⟩ : BufTy).Contents (Elt F) → (⟨S16x64x256x256, .f32⟩ : BufTy).Contents (Elt F)),
    binary main_v47 main_v46 main_v48 (addf : (⟨S16x64x256x256, .f32⟩ : BufTy).Contents (Elt F) → (⟨S16x64x256x256, .f32⟩ : BufTy).Contents (Elt F) → (⟨S16x64x256x256, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., unary_bufs_sub .., binary_bufs_sub .., unary_bufs_sub .., unary_bufs_sub .., unary_bufs_sub .., binary_bufs_sub .., binary_bufs_sub .., nullary_bufs_sub .., unary_bufs_sub .., binary_bufs_sub .., unary_bufs_sub .., unary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., binary_bufs_sub .., binary_bufs_sub ..⟩

/-- Two arrays laid side by side depend only on the two arrays. -/
theorem concat2_congr {α : Type} {t s1 s2 : Shape} {ax : Fin t.rank} {a a' : s1.Idx → α} {b b' : s2.Idx → α}
    (h : Shape.Concatenates [s1, s2] t ax) (ha : a = a') (hb : b = b') :
    concatenate t ax [⟨s1, a⟩, ⟨s2, b⟩] h = concatenate t ax [⟨s1, a'⟩, ⟨s2, b'⟩] h := by
  subst ha hb; rfl

set_option maxRecDepth 8192 in
set_option maxHeartbeats 1000000 in
/-- The result buffer after the 67 operations holds the stages' composition of the four arguments. -/
theorem after_main_v48 (m : (ℓ : Loc nD τ sig) → Buf (Elt F) ℓ) (c : Dev nD) :
    after (ops (F := F)) (launchContents m c) (Proc.devRef .tc main_v48)
      = Stages.val_main_v48 (F := F) (m ((c.tc : Thread nD τ).loc main_arg0)) (m ((c.tc : Thread nD τ).loc main_arg1)) (m ((c.tc : Thread nD τ).loc main_arg2)) (m ((c.tc : Thread nD τ).loc main_arg3)) := by
  after_results_simp
  unfold Stages.val_main_v48 Stages.val_main_v47 Stages.val_main_v46 Stages.val_main_v31 Stages.val_main_v30 Stages.val_main_v45
  refine congrArg₂ addf (congrArg₂ mulf (congrArg₂ (Host.gather _) ?_ (concat2_congr _ ?_ ?_)) rfl)
    (congrArg₂ (Host.gather _) ?_ (concat2_congr _ ?_ ?_))
  · rfl
  · after_results_simp <;> rfl
  · after_results_simp <;> rfl
  · rfl
  · after_results_simp <;> rfl
  · after_results_simp <;> rfl

set_option maxRecDepth 8192 in
set_option maxHeartbeats 1000000 in
/-- On every device, from any memory with zero counters: every weakly fair execution of @main terminates with the
    result buffer at the stages' composition of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48)
        = Stages.val_main_v48 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v48).trans (after_main_v48 m c),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RefRun

end
-- ==== Proof.lean ====
/-
  The proof of `Cert.Claim`: a kernel that bins each entry of a `[16, 64, 256, 256]` array into one of twenty
  bins of width `0.1` and applies the bin's slope and intercept of the entry's channel, against a reference that
  looks the slope and intercept up by a gather.

  Both programs compute, from two `[64, 20]` anchor arrays and twenty integer offsets, a slope table
  `W = (y − y') / 0.1` and an intercept table `B = y − (y − y') · offset`, and the bin
  `k = clamp (⌊x / 0.1⌋ + 10, 0, 19)` of each entry `x`; the result is `W (c, k) · x + B (c, k)`.
  The reference reads `W (c, k)` and `B (c, k)` off the tables. The kernel, block by block over a `4 × 16` grid,
  adds to `W (c, 0)` the increments `W (c, m) − W (c, m − 1)` for the `m` in `1 … 19` with `m ≤ k` (and likewise
  for `B`): a telescoping sum, equal to `W (c, k)` because under the precondition the anchors, hence the tables,
  are real numbers. The modules:

  * `Spec`      — the bin, the indicator, the nineteen-term sum, and the result `G` as one function;
  * `Law`       — the telescoping law and the bridge at one index;
  * `BodyPoint` — the kernel body's result at an index of a block, in the nineteen-term form;
  * `HostTabs`  — the tables and their first columns and increments as the kernel's region finds them;
  * `Finite`    — the tables are real under the precondition;
  * `Blocks`    — each grid point writes the block of `G`, the blocks tile the result: the kernel's run ends at `G`;
  * `RefStages`, `RefSide`, `RefRun` — the reference's operations one by one, its result is `G`, and its run;
  * `Bridge`    — the five claims from the two runs.

  The word-level kernel's frame and the idealized kernel's are the generated frames; the idealization rewrote
  nothing, so `preserves` is `True`.
-/
import proofs.«140695_j74904229642249_2_alg».proof.Defs
import proofs.«140695_j74904229642249_2_alg».proof.Proof.Gen.Kernel
import proofs.«140695_j74904229642249_2_alg».proof.Proof.Gen.Kernel.Skeleton
import proofs.«140695_j74904229642249_2_alg».proof.Proof.Gen.Kernel.Launch
import proofs.«140695_j74904229642249_2_alg».proof.Proof.Gen.Kernel.Points
import proofs.«140695_j74904229642249_2_alg».proof.Proof.Gen.Kernel.Frame
import proofs.«140695_j74904229642249_2_alg».proof.Proof.Gen.KernelIdeal
import proofs.«140695_j74904229642249_2_alg».proof.Proof.Gen.KernelIdeal.Skeleton
import proofs.«140695_j74904229642249_2_alg».proof.Proof.Gen.KernelIdeal.Launch
import proofs.«140695_j74904229642249_2_alg».proof.Proof.Gen.KernelIdeal.Points
import proofs.«140695_j74904229642249_2_alg».proof.Proof.Gen.KernelIdeal.Frame
import proofs.«140695_j74904229642249_2_alg».proof.Proof.Gen.KernelIdeal.Value
import proofs.«140695_j74904229642249_2_alg».proof.Proof.Gen.ReferenceIdeal
import proofs.«140695_j74904229642249_2_alg».proof.Proof.Gen.Pre_finite_inputs
import proofs.«140695_j74904229642249_2_alg».proof.Proof.Bridge
import proofs.«140695_j74904229642249_2_alg».proof.Proof.RefRun
import Idealize.ShloMosaic.Adequacy
import Idealize.ShloMosaic.Init

noncomputable section

namespace Cert.Proof

open Idealize.ShloMosaic Idealize.SL.Sem Cert.Kernel

/-- The reference's run, in the form the bridge takes. -/
theorem refRuns : Bridge.RefRuns := fun m' ρ' => Cert.ReferenceIdeal.RefRun.run m' ρ'

theorem claim : Cert.Claim := ⟨Cert.Kernel.Gen.facts, Cert.KernelIdeal.Gen.facts, Cert.ReferenceIdeal.Gen.facts, Cert.Pre_finite_inputs.Gen.facts,
  Bridge.frame_k, Bridge.frame_ki, Bridge.frame_ri refRuns, trivial, Bridge.algebraic refRuns⟩

end Cert.Proof

end
